-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v95)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v95) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg9 : FVec F S128x16 .f32) (main_arg10 : FVec F S16 .f32) (main_v33 : IVec S_ 1) : IVec S_ 1 :=
  let main_v34 : FVec F S128x16 .f32 := Host.absf main_arg9
  let main_cst_12 : FVec F S_ .f32 := constant S_ .f32 0x7F800000#32
  let main_v35 : FVec F S128x16 .f32 := broadcastInDim S128x16 ![] bcast_S_S128x16 main_cst_12
  let main_v36 : IVec S128x16 1 := cmpf .olt main_v34 main_v35
  let main_c_13 : IVec S_ 1 := constantI S_ 1 1#1
  let main_v37 : IVec S_ 1 := (fun x v => Host.reduce IntOp.andi x v reducesTo_S128x16_S_d0_1 h_S_) main_v36 main_c_13
  let main_v38 : IVec S_ 1 := andi main_v33 main_v37
  let main_v39 : FVec F S16 .f32 := Host.absf main_arg10
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  main_v43

def fn_part1 {F : FTy → Type} [FloatOps F] (main_arg6 : FVec F S128 .f32) (main_arg7 : FVec F S128x128 .f32) (main_arg8 : FVec F S128 .f32) (main_arg9 : FVec F S128x16 .f32) (main_arg10 : FVec F S16 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S50000x128 .f32) (main_arg1 : IVec S2x800000 32) (main_arg2 : IVec S50000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x16 .f32) (main_arg10 : FVec F S16 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩
abbrev S512x128 : Shape := ⟨2, ![512, 128]⟩
abbrev S50000x1 : Shape := ⟨2, ![50000, 1]⟩
abbrev S512 : Shape := ⟨1, ![512]⟩
abbrev S512x1 : Shape := ⟨2, ![512, 1]⟩
abbrev S512x16 : Shape := ⟨2, ![512, 16]⟩

abbrev nBuf : Space → Nat
  | .hbm => 134
  | .vmem => 36
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x16, .f32⟩
  | 10 => ⟨S16, .f32⟩
  | 11 => ⟨S50000, .i32⟩
  | 12 => ⟨S1x800000, .i32⟩
  | 13 => ⟨S800000, .i32⟩
  | 14 => ⟨S850000, .i32⟩
  | 15 => ⟨S1x800000, .i32⟩
  | 16 => ⟨S800000, .i32⟩
  | 17 => ⟨S850000, .i32⟩
  | 18 => ⟨S_, .f32⟩
  | 19 => ⟨S850000, .f32⟩
  | 20 => ⟨S_, .f32⟩
  | 21 => ⟨S50000, .f32⟩
  | 22 => ⟨S850000x1, .i32⟩
  | 23 => ⟨S50000, .f32⟩
  | 24 => ⟨S_, .f32⟩
  | 25 => ⟨S50000, .f32⟩
  | 26 => ⟨S50000, .i1⟩
  | 27 => ⟨S50000, .f32⟩
  | 28 => ⟨S_, .f32⟩
  | 29 => ⟨S_, .f32⟩
  | 30 => ⟨S50000, .f32⟩
  | 31 => ⟨S50000, .f32⟩
  | 32 => ⟨S_, .i32⟩
  | 33 => ⟨S850000, .i32⟩
  | 34 => ⟨S850000, .i1⟩
  | 35 => ⟨S_, .i32⟩
  | 36 => ⟨S850000, .i32⟩
  | 37 => ⟨S850000, .i32⟩
  | 38 => ⟨S850000, .i32⟩
  | 39 => ⟨S850000x1, .i32⟩
  | 40 => ⟨S850000, .f32⟩
  | 41 => ⟨S_, .i32⟩
  | 42 => ⟨S850000, .i32⟩
  | 43 => ⟨S850000, .i1⟩
  | 44 => ⟨S_, .i32⟩
  | 45 => ⟨S850000, .i32⟩
  | 46 => ⟨S850000, .i32⟩
  | 47 => ⟨S850000, .i32⟩
  | 48 => ⟨S850000x1, .i32⟩
  | 49 => ⟨S850000, .f32⟩
  | 50 => ⟨S850000, .f32⟩
  | 51 => ⟨S50000x128, .f32⟩
  | 52 => ⟨S_, .i32⟩
  | 53 => ⟨S850000, .i32⟩
  | 54 => ⟨S850000, .i1⟩
  | 55 => ⟨S_, .i32⟩
  | 56 => ⟨S850000, .i32⟩
  | 57 => ⟨S850000, .i32⟩
  | 58 => ⟨S850000, .i32⟩
  | 59 => ⟨S850000x1, .i32⟩
  | 60 => ⟨S850000x128, .f32⟩
  | 61 => ⟨S850000x1, .f32⟩
  | 62 => ⟨S850000x128, .f32⟩
  | 63 => ⟨S850000x128, .f32⟩
  | 64 => ⟨S_, .f32⟩
  | 65 => ⟨S50000x128, .f32⟩
  | 66 => ⟨S850000x1, .i32⟩
  | 67 => ⟨S50000x128, .f32⟩
  | 68 => ⟨S1x128, .f32⟩
  | 69 => ⟨S50000x128, .f32⟩
  | 70 => ⟨S50000x128, .f32⟩
  | 71 => ⟨S_, .i32⟩
  | 72 => ⟨S850000, .i32⟩
  | 73 => ⟨S850000, .i1⟩
  | 74 => ⟨S_, .i32⟩
  | 75 => ⟨S850000, .i32⟩
  | 76 => ⟨S850000, .i32⟩
  | 77 => ⟨S850000, .i32⟩
  | 78 => ⟨S850000x1, .i32⟩
  | 79 => ⟨S850000x128, .f32⟩
  | 80 => ⟨S850000x1, .f32⟩
  | 81 => ⟨S850000x128, .f32⟩
  | 82 => ⟨S850000x128, .f32⟩
  | 83 => ⟨S_, .f32⟩
  | 84 => ⟨S50000x128, .f32⟩
  | 85 => ⟨S850000x1, .i32⟩
  | 86 => ⟨S50000x128, .f32⟩
  | 87 => ⟨S1x128, .f32⟩
  | 88 => ⟨S50000x128, .f32⟩
  | 89 => ⟨S50000x128, .f32⟩
  | 90 => ⟨S_, .i32⟩
  | 91 => ⟨S850000, .i32⟩
  | 92 => ⟨S850000, .i1⟩
  | 93 => ⟨S_, .i32⟩
  | 94 => ⟨S850000, .i32⟩
  | 95 => ⟨S850000, .i32⟩
  | 96 => ⟨S850000, .i32⟩
  | 97 => ⟨S850000x1, .i32⟩
  | 98 => ⟨S850000x128, .f32⟩
  | 99 => ⟨S850000x1, .f32⟩
  | 100 => ⟨S850000x128, .f32⟩
  | 101 => ⟨S850000x128, .f32⟩
  | 102 => ⟨S_, .f32⟩
  | 103 => ⟨S50000x128, .f32⟩
  | 104 => ⟨S850000x1, .i32⟩
  | 105 => ⟨S50000x128, .f32⟩
  | 106 => ⟨S1x128, .f32⟩
  | 107 => ⟨S50000x128, .f32⟩
  | 108 => ⟨S_, .f32⟩
  | 109 => ⟨S512x128, .f32⟩
  | 110 => ⟨S50000x1, .i32⟩
  | 111 => ⟨S512x128, .f32⟩
  | 112 => ⟨S_, .f32⟩
  | 113 => ⟨S50000, .f32⟩
  | 114 => ⟨S_, .f32⟩
  | 115 => ⟨S512, .f32⟩
  | 116 => ⟨S50000x1, .i32⟩
  | 117 => ⟨S512, .f32⟩
  | 118 => ⟨S_, .f32⟩
  | 119 => ⟨S512, .f32⟩
  | 120 => ⟨S512, .f32⟩
  | 121 => ⟨S512x1, .f32⟩
  | 122 => ⟨S512x128, .f32⟩
  | 123 => ⟨S512x128, .f32⟩
  | 124 => ⟨S_, .i32⟩
  | 125 => ⟨S_, .f32⟩
  | 126 => ⟨S128x128, .f32⟩
  | 127 => ⟨S_, .i32⟩
  | _ => ⟨S50000x128, .f32⟩

abbrev hbmTy0_1 (i : Nat) : BufTy := match i % 128 with
  | 0 => ⟨S_, .f32⟩
  | 1 => ⟨S128, .f32⟩
  | 2 => ⟨S512x128, .f32⟩
  | 3 => ⟨S1x128, .f32⟩
  | 4 => ⟨S512x128, .f32⟩
  | 5 => ⟨S512x16, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S512x128, .f32⟩
  | .local _ .vmem, ⟨31, _⟩ => ⟨S128x128, .f32⟩
  | .local _ .vmem, ⟨32, _⟩ => ⟨S512x128, .f32⟩
  | .local _ .vmem, ⟨33, _⟩ => ⟨S512x128, .f32⟩
  | .local _ .vmem, ⟨34, _⟩ => ⟨S1x128, .f32⟩
  | .local _ .vmem, ⟨35, _⟩ => ⟨S512x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_c_9 : Ref sig .tc := ⟨.hbm, 71, rfl⟩
abbrev main_v47 : Ref sig .tc := ⟨.hbm, 72, rfl⟩
abbrev main_v48 : Ref sig .tc := ⟨.hbm, 73, rfl⟩
abbrev main_c_10 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_11 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_c_12 : Ref sig .tc := ⟨.hbm, 90, rfl⟩
abbrev main_v63 : Ref sig .tc := ⟨.hbm, 91, rfl⟩
abbrev main_v64 : Ref sig .tc := ⟨.hbm, 92, rfl⟩
abbrev main_c_13 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst_14 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_cst_15 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_cst_16 : Ref sig .tc := ⟨.hbm, 112, rfl⟩
abbrev main_v81 : Ref sig .tc := ⟨.hbm, 113, rfl⟩
abbrev main_cst_17 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_18 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_c_19 : Ref sig .tc := ⟨.hbm, 124, rfl⟩
abbrev main_call1_v0 : Ref sig .tc := ⟨.hbm, 125, rfl⟩
abbrev main_v90 : Ref sig .tc := ⟨.hbm, 126, rfl⟩
abbrev main_c_20 : Ref sig .tc := ⟨.hbm, 127, rfl⟩
abbrev main_call2_v0 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg1_0 : Ref sig .tc := ⟨.vmem, 31, rfl⟩
abbrev cc6_stg2_0 : Ref sig .tc := ⟨.vmem, 32, rfl⟩
abbrev cc7_stg0_0 : Ref sig .tc := ⟨.vmem, 33, rfl⟩
abbrev cc7_stg1_0 : Ref sig .tc := ⟨.vmem, 34, rfl⟩
abbrev cc7_stg2_0 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem1_0 : DmaSem sig := 31
abbrev cc6_sem2_0 : DmaSem sig := 32
abbrev cc7_sem0_0 : DmaSem sig := 33
abbrev cc7_sem1_0 : DmaSem sig := 34
abbrev cc7_sem2_0 : DmaSem sig := 35

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 1 → Memref sig .tc .vmem S512x128 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S512x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![true]

abbrev grid7 : Pipeline.Grid := ⟨1, ![1], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 1 → Memref sig .tc .vmem S512x128 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S512x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S512x128 : S_.BroadcastsInDim S512x128 (![] : Fin 0 → Fin S512x128.rank)
  bcast_S50000_S50000x1_0 : S50000.BroadcastsInDim S50000x1 (![0] : Fin 1 → Fin S50000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  pads_S128x16_S128x128_000_01120 : S128x16.Pads (![0, 0] : Fin 2 → Nat) ![0, 112] ![0, 0] S128x128
  h_S_ : 0 < S_.numel
  pads_S16_S128_01120 : S16.Pads (![0] : Fin 1 → Nat) ![112] ![0] S128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  shapeCasts_S128x128_S128x128 : S128x128.ShapeCasts S128x128
  broadcasts_S1x128_S512x128 : S1x128.Broadcasts S512x128
  slices_S512x128_S512x16_0_0 : S512x128.Slices ![0, 0] S512x16
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S512x128_S50000x1_S50000x128_1_0_0_1_wf : ScatterDims.WF S512x128 S50000x1 S50000x128 [1] [0] [0] 1
  scatter_S512_S50000x1_S50000_n_0_0_1_wf : ScatterDims.WF S512 S50000x1 S50000 [] [0] [0] 1
  dot_S512x128_S128x128_S512x128_1_0_0_1_n_n_wf : DotDims.WF S512x128 S128x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S50000x128.size a
  hwx4_2 : ∀ i : grid4.Coords, EltTy.bits .f32 = 32 ∨ (Rect.block (s := S50000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S50000x128.size a
  hwx5_2 : ∀ i : grid5.Coords, EltTy.bits .f32 = 32 ∨ (Rect.block (s := S50000x128) S5000x128.size (cc5_transform_2 i) (hinb5_2 i)).WholeWords (EltTy.packing .f32)
  hrank6 : 0 < grid6.rank
  hstage6_0 : ∀ j, (stage6_0 j).IsWhole
  nbuf6_0 : grid6.bufCount reads6_0 false = 1
  hreads6_0 : ∀ i i' : grid6.Coords, (∀ a, reads6_0 a = true → i a = i' a) → cc6_transform_0 i = cc6_transform_0 i'
  hinb6_0 : ∀ (i : grid6.Coords) a, (cc6_transform_0 i a + 1) * S512x128.size a ≤ S512x128.size a
  hwx6_0 : ∀ i : grid6.Coords, EltTy.bits .f32 = 32 ∨ (Rect.block (s := S512x128) S512x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 false = 1
  hreads6_2 : ∀ i i' : grid6.Coords, (∀ a, reads6_2 a = true → i a = i' a) → cc6_transform_2 i = cc6_transform_2 i'
  hinb6_2 : ∀ (i : grid6.Coords) a, (cc6_transform_2 i a + 1) * S512x128.size a ≤ S512x128.size a
  hwx6_2 : ∀ i : grid6.Coords, EltTy.bits .f32 = 32 ∨ (Rect.block (s := S512x128) S512x128.size (cc6_transform_2 i) (hinb6_2 i)).WholeWords (EltTy.packing .f32)
  hrank7 : 0 < grid7.rank
  hstage7_0 : ∀ j, (stage7_0 j).IsWhole
  nbuf7_0 : grid7.bufCount reads7_0 false = 1
  hreads7_0 : ∀ i i' : grid7.Coords, (∀ a, reads7_0 a = true → i a = i' a) → cc7_transform_0 i = cc7_transform_0 i'
  hinb7_0 : ∀ (i : grid7.Coords) a, (cc7_transform_0 i a + 1) * S512x128.size a ≤ S512x128.size a
  hwx7_0 : ∀ i : grid7.Coords, EltTy.bits .f32 = 32 ∨ (Rect.block (s := S512x128) S512x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 false = 1
  hreads7_2 : ∀ i i' : grid7.Coords, (∀ a, reads7_2 a = true → i a = i' a) → cc7_transform_2 i = cc7_transform_2 i'
  hinb7_2 : ∀ (i : grid7.Coords) a, (cc7_transform_2 i a + 1) * S512x128.size a ≤ S512x128.size a
  hwx7_2 : ∀ i : grid7.Coords, EltTy.bits .f32 = 32 ∨ (Rect.block (s := S512x128) S512x128.size (cc7_transform_2 i) (hinb7_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v61) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v62) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v75) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v76) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v77) S5000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v89) S512x128.size cc6_transform_0 reads6_0 false false 1 stage6_0 sem6_0
    hrank6 hreads6_0 hinb6_0 nbuf6_0 (Memref.isWhole_whole _) hwx6_0 hstage6_0

abbrev win6_1 : Pipeline.Window sig grid6 :=
  Pipeline.Window.ofSpec (Memref.whole main_v90) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v92) S512x128.size cc6_transform_2 reads6_2 true false 1 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v92) S512x128.size cc7_transform_0 reads7_0 false false 1 stage7_0 sem7_0
    hrank7 hreads7_0 hinb7_0 nbuf7_0 (Memref.isWhole_whole _) hwx7_0 hstage7_0

abbrev win7_1 : Pipeline.Window sig grid7 :=
  Pipeline.Window.ofSpec (Memref.whole main_v93) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v94) S512x128.size cc7_transform_2 reads7_2 true false 1 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S512x128 : Shape := ⟨2, ![512, 128]⟩
abbrev S50000x1 : Shape := ⟨2, ![50000, 1]⟩
abbrev S512 : Shape := ⟨1, ![512]⟩
abbrev S512x1 : Shape := ⟨2, ![512, 1]⟩
abbrev S512x16 : Shape := ⟨2, ![512, 16]⟩
abbrev S1x16 : Shape := ⟨2, ![1, 16]⟩

abbrev nBuf : Space → Nat
  | .hbm => 137
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x16, .f32⟩
  | 10 => ⟨S16, .f32⟩
  | 11 => ⟨S50000, .i32⟩
  | 12 => ⟨S1x800000, .i32⟩
  | 13 => ⟨S800000, .i32⟩
  | 14 => ⟨S850000, .i32⟩
  | 15 => ⟨S1x800000, .i32⟩
  | 16 => ⟨S800000, .i32⟩
  | 17 => ⟨S850000, .i32⟩
  | 18 => ⟨S_, .f32⟩
  | 19 => ⟨S850000, .f32⟩
  | 20 => ⟨S_, .f32⟩
  | 21 => ⟨S50000, .f32⟩
  | 22 => ⟨S850000x1, .i32⟩
  | 23 => ⟨S50000, .f32⟩
  | 24 => ⟨S_, .f32⟩
  | 25 => ⟨S50000, .f32⟩
  | 26 => ⟨S50000, .i1⟩
  | 27 => ⟨S50000, .f32⟩
  | 28 => ⟨S_, .f32⟩
  | 29 => ⟨S_, .f32⟩
  | 30 => ⟨S50000, .f32⟩
  | 31 => ⟨S50000, .f32⟩
  | 32 => ⟨S_, .i32⟩
  | 33 => ⟨S850000, .i32⟩
  | 34 => ⟨S850000, .i1⟩
  | 35 => ⟨S_, .i32⟩
  | 36 => ⟨S850000, .i32⟩
  | 37 => ⟨S850000, .i32⟩
  | 38 => ⟨S850000, .i32⟩
  | 39 => ⟨S850000x1, .i32⟩
  | 40 => ⟨S850000, .f32⟩
  | 41 => ⟨S_, .i32⟩
  | 42 => ⟨S850000, .i32⟩
  | 43 => ⟨S850000, .i1⟩
  | 44 => ⟨S_, .i32⟩
  | 45 => ⟨S850000, .i32⟩
  | 46 => ⟨S850000, .i32⟩
  | 47 => ⟨S850000, .i32⟩
  | 48 => ⟨S850000x1, .i32⟩
  | 49 => ⟨S850000, .f32⟩
  | 50 => ⟨S850000, .f32⟩
  | 51 => ⟨S50000x128, .f32⟩
  | 52 => ⟨S_, .i32⟩
  | 53 => ⟨S850000, .i32⟩
  | 54 => ⟨S850000, .i1⟩
  | 55 => ⟨S_, .i32⟩
  | 56 => ⟨S850000, .i32⟩
  | 57 => ⟨S850000, .i32⟩
  | 58 => ⟨S850000, .i32⟩
  | 59 => ⟨S850000x1, .i32⟩
  | 60 => ⟨S850000x128, .f32⟩
  | 61 => ⟨S850000x1, .f32⟩
  | 62 => ⟨S850000x128, .f32⟩
  | 63 => ⟨S850000x128, .f32⟩
  | 64 => ⟨S_, .f32⟩
  | 65 => ⟨S50000x128, .f32⟩
  | 66 => ⟨S850000x1, .i32⟩
  | 67 => ⟨S50000x128, .f32⟩
  | 68 => ⟨S1x128, .f32⟩
  | 69 => ⟨S50000x128, .f32⟩
  | 70 => ⟨S50000x128, .f32⟩
  | 71 => ⟨S_, .f32⟩
  | 72 => ⟨S50000x128, .f32⟩
  | 73 => ⟨S50000x128, .f32⟩
  | 74 => ⟨S50000x128, .f32⟩
  | 75 => ⟨S_, .i32⟩
  | 76 => ⟨S850000, .i32⟩
  | 77 => ⟨S850000, .i1⟩
  | 78 => ⟨S_, .i32⟩
  | 79 => ⟨S850000, .i32⟩
  | 80 => ⟨S850000, .i32⟩
  | 81 => ⟨S850000, .i32⟩
  | 82 => ⟨S850000x1, .i32⟩
  | 83 => ⟨S850000x128, .f32⟩
  | 84 => ⟨S850000x1, .f32⟩
  | 85 => ⟨S850000x128, .f32⟩
  | 86 => ⟨S850000x128, .f32⟩
  | 87 => ⟨S_, .f32⟩
  | 88 => ⟨S50000x128, .f32⟩
  | 89 => ⟨S850000x1, .i32⟩
  | 90 => ⟨S50000x128, .f32⟩
  | 91 => ⟨S1x128, .f32⟩
  | 92 => ⟨S50000x128, .f32⟩
  | 93 => ⟨S50000x128, .f32⟩
  | 94 => ⟨S_, .f32⟩
  | 95 => ⟨S50000x128, .f32⟩
  | 96 => ⟨S50000x128, .f32⟩
  | 97 => ⟨S50000x128, .f32⟩
  | 98 => ⟨S_, .i32⟩
  | 99 => ⟨S850000, .i32⟩
  | 100 => ⟨S850000, .i1⟩
  | 101 => ⟨S_, .i32⟩
  | 102 => ⟨S850000, .i32⟩
  | 103 => ⟨S850000, .i32⟩
  | 104 => ⟨S850000, .i32⟩
  | 105 => ⟨S850000x1, .i32⟩
  | 106 => ⟨S850000x128, .f32⟩
  | 107 => ⟨S850000x1, .f32⟩
  | 108 => ⟨S850000x128, .f32⟩
  | 109 => ⟨S850000x128, .f32⟩
  | 110 => ⟨S_, .f32⟩
  | 111 => ⟨S50000x128, .f32⟩
  | 112 => ⟨S850000x1, .i32⟩
  | 113 => ⟨S50000x128, .f32⟩
  | 114 => ⟨S1x128, .f32⟩
  | 115 => ⟨S50000x128, .f32⟩
  | 116 => ⟨S50000x128, .f32⟩
  | 117 => ⟨S_, .f32⟩
  | 118 => ⟨S512x128, .f32⟩
  | 119 => ⟨S50000x1, .i32⟩
  | 120 => ⟨S512x128, .f32⟩
  | 121 => ⟨S_, .f32⟩
  | 122 => ⟨S50000, .f32⟩
  | 123 => ⟨S_, .f32⟩
  | 124 => ⟨S512, .f32⟩
  | 125 => ⟨S50000x1, .i32⟩
  | 126 => ⟨S512, .f32⟩
  | 127 => ⟨S_, .f32⟩
  | _ => ⟨S50000x128, .f32⟩

abbrev hbmTy0_1 (i : Nat) : BufTy := match i % 128 with
  | 0 => ⟨S512, .f32⟩
  | 1 => ⟨S512, .f32⟩
  | 2 => ⟨S512x1, .f32⟩
  | 3 => ⟨S512x128, .f32⟩
  | 4 => ⟨S512x128, .f32⟩
  | 5 => ⟨S512x16, .f32⟩
  | 6 => ⟨S1x16, .f32⟩
  | 7 => ⟨S512x16, .f32⟩
  | 8 => ⟨S512x16, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_call1_cst : Ref sig .tc := ⟨.hbm, 71, rfl⟩
abbrev main_call1_v0 : Ref sig .tc := ⟨.hbm, 72, rfl⟩
abbrev main_v47 : Ref sig .tc := ⟨.hbm, 73, rfl⟩
abbrev main_v48 : Ref sig .tc := ⟨.hbm, 74, rfl⟩
abbrev main_c_9 : Ref sig .tc := ⟨.hbm, 75, rfl⟩
abbrev main_v49 : Ref sig .tc := ⟨.hbm, 76, rfl⟩
abbrev main_v50 : Ref sig .tc := ⟨.hbm, 77, rfl⟩
abbrev main_c_10 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_11 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_call2_cst : Ref sig .tc := ⟨.hbm, 94, rfl⟩
abbrev main_call2_v0 : Ref sig .tc := ⟨.hbm, 95, rfl⟩
abbrev main_v65 : Ref sig .tc := ⟨.hbm, 96, rfl⟩
abbrev main_v66 : Ref sig .tc := ⟨.hbm, 97, rfl⟩
abbrev main_c_12 : Ref sig .tc := ⟨.hbm, 98, rfl⟩
abbrev main_v67 : Ref sig .tc := ⟨.hbm, 99, rfl⟩
abbrev main_v68 : Ref sig .tc := ⟨.hbm, 100, rfl⟩
abbrev main_c_13 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_cst_14 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_cst_15 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_cst_16 : Ref sig .tc := ⟨.hbm, 121, rfl⟩
abbrev main_v86 : Ref sig .tc := ⟨.hbm, 122, rfl⟩
abbrev main_cst_17 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_cst_18 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S512x128 : S_.BroadcastsInDim S512x128 (![] : Fin 0 → Fin S512x128.rank)
  bcast_S50000_S50000x1_0 : S50000.BroadcastsInDim S50000x1 (![0] : Fin 1 → Fin S50000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S16_S1x16_1 : S16.BroadcastsInDim S1x16 (![1] : Fin 1 → Fin S1x16.rank)
  bcast_S1x16_S512x16_0_1 : S1x16.BroadcastsInDim S512x16 (![0, 1] : Fin 2 → Fin S512x16.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S512x128_S50000x1_S50000x128_1_0_0_1_wf : ScatterDims.WF S512x128 S50000x1 S50000x128 [1] [0] [0] 1
  scatter_S512_S50000x1_S50000_n_0_0_1_wf : ScatterDims.WF S512 S50000x1 S50000 [] [0] [0] 1
  dot_S512x128_S128x16_S512x16_1_0_0_1_n_n_wf : DotDims.WF S512x128 S128x16 S512x16 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x128_S128x16_S512x16_1_0_0_1_n_n : DotDims S512x128 S128x16 S512x16 where
  lhsContracting := [1]
  rhsContracting := [0]
  lhsNonContracting := [0]
  rhsNonContracting := [1]
  lhsBatch := []
  rhsBatch := []
  wf := dot_S512x128_S128x16_S512x16_1_0_0_1_n_n_wf

class Facts : Prop extends Facts₀ where

variable [Facts]
-- ==== Proof.RefStages.lean ====
/-
  The reference program's result as a composition of named stages.

  A graph convolution network over `n = 50000` nodes and `800000` edges plus one self loop per node:
  the edge list's two rows, each followed by `0 … n − 1`, are the edges' source and target nodes; a node's degree is the number
  of edges that end at it; an edge's weight is the product of its two ends' inverse square root degrees (0 where the
  degree is not positive). One layer multiplies the node features by a weight matrix, sends each edge's weighted source
  row to its target (a scatter-add), and adds a bias row. Three layers, the first two followed by the positive part, then
  the mean of the node rows of each of 512 graphs (the sum divided by the count, at least 1), then a linear classifier.
  Each stage below is the reference's own operations on its operands; the reference's result is their composition.
-/
import proofs.«145221_j74741020885173_1_alg».proof.Proof.RefRun

set_option maxRecDepth 16384

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

/-- The edges' source nodes: row 0 of the edge list, then every node (its self loop). -/
def sources (ei : IVec S2x800000 32) : IVec S850000 32 :=
  concatenate S850000 0 [⟨S800000, (shapeCast _ (extractStridedSlice S1x800000 ![0, 0] ei slices_S2x800000_S1x800000_0_0) shapeCasts_S1x800000_S800000)⟩, ⟨S50000, (iotaInDim S50000 32 0)⟩] concatenates_S800000_S50000_S850000_d0

/-- The edges' target nodes: row 1 of the edge list, then every node. -/
def targets (ei : IVec S2x800000 32) : IVec S850000 32 :=
  concatenate S850000 0 [⟨S800000, (shapeCast _ (extractStridedSlice S1x800000 ![1, 0] ei slices_S2x800000_S1x800000_1_0) shapeCasts_S1x800000_S800000)⟩, ⟨S50000, (iotaInDim S50000 32 0)⟩] concatenates_S800000_S50000_S850000_d0

/-- A node list as a gather's index column: a negative entry counted from the end. -/
def lookup (v : IVec S850000 32) : IVec S850000x1 32 :=
  broadcastInDim S850000x1 ![0] bcast_S850000_S850000x1_0 (select (cmpi .slt v (broadcastInDim S850000 ![] bcast_S_S850000 (constantI S_ 32 0#32))) (addi v (broadcastInDim S850000 ![] bcast_S_S850000 (constantI S_ 32 50000#32))) v)

/-- A node's degree: one for every edge that ends at it. -/
def degree (ei : IVec S2x800000 32) : FVec F S50000 .f32 :=
  Host.scatterAdd scatter_S50000_S850000x1_S850000_n_0_0_1 (broadcastInDim S50000 ![] bcast_S_S50000 (constant S_ .f32 0x00000000#32)) (broadcastInDim S850000x1 ![0] bcast_S850000_S850000x1_0 (targets ei)) (broadcastInDim S850000 ![] bcast_S_S850000 (constant S_ .f32 0x3F800000#32))

/-- The inverse square root of a node's degree, 0 where the degree is not positive. -/
def invSqrtDegree (ei : IVec S2x800000 32) : FVec F S50000 .f32 :=
  select (cmpf (F := F) .ogt (degree ei) (broadcastInDim S50000 ![] bcast_S_S50000 (constant S_ .f32 0x00000000#32))) (Host.rsqrt (degree ei)) (broadcastInDim S50000 ![] bcast_S_S50000 (id (constant S_ .f32 0x00000000#32)))

/-- An edge's weight: the product of its two ends' inverse square root degrees. -/
def edgeWeight (ei : IVec S2x800000 32) : FVec F S850000 .f32 :=
  mulf (Host.gather gather_S50000_S850000x1_S850000_n_0_n_n_0_1_1 (invSqrtDegree ei) (lookup (sources ei))) (Host.gather gather_S50000_S850000x1_S850000_n_0_n_n_0_1_1 (invSqrtDegree ei) (lookup (targets ei)))

/-- One propagation over the edges with source nodes `src`, target nodes `tgt` and weights `wt`: every edge adds its weight
    times its source's row of `h` to its target's row. -/
def propagate (src tgt : IVec S850000 32) (wt : FVec F S850000 .f32) (h : FVec F S50000x128 .f32) : FVec F S50000x128 .f32 :=
  Host.scatterAdd scatter_S50000x128_S850000x1_S850000x128_1_0_0_1 (broadcastInDim S50000x128 ![] bcast_S_S50000x128 (constant S_ .f32 0x00000000#32)) (broadcastInDim S850000x1 ![0] bcast_S850000_S850000x1_0 tgt) (mulf (Host.gather gather_S50000x128_S850000x1_S850000x128_1_0_n_n_0_1_1128 h (lookup src)) (broadcastInDim S850000x128 ![0, 1] bcast_S850000x1_S850000x128_0_1 (broadcastInDim S850000x1 ![0] bcast_S850000_S850000x1_0 wt)))

/-- A bias vector added to every node's row. -/
def addBias (x : FVec F S50000x128 .f32) (b : FVec F S128 .f32) : FVec F S50000x128 .f32 :=
  addf x (broadcastInDim S50000x128 ![0, 1] bcast_S1x128_S50000x128_0_1 (broadcastInDim S1x128 ![1] bcast_S128_S1x128_1 b))

/-- The positive part. -/
def positivePart (x : FVec F S50000x128 .f32) : FVec F S50000x128 .f32 :=
  maximumf x (broadcastInDim S50000x128 ![] bcast_S_S50000x128 (constant S_ .f32 0x00000000#32))

/-- The node features times a weight matrix. -/
def transform (x : FVec F S50000x128 .f32) (w : FVec F S128x128 .f32) : FVec F S50000x128 .f32 :=
  Host.dotGeneral dot_S50000x128_S128x128_S50000x128_1_0_0_1_n_n none x w

/-- The mean of each graph's node rows: the sum over its nodes divided by their number, at least 1. -/
def pool (bt : IVec S50000 32) (h : FVec F S50000x128 .f32) : FVec F S512x128 .f32 :=
  Host.divf (Host.scatterAdd scatter_S512x128_S50000x1_S50000x128_1_0_0_1 (broadcastInDim S512x128 ![] bcast_S_S512x128 (constant S_ .f32 0x00000000#32)) (broadcastInDim S50000x1 ![0] bcast_S50000_S50000x1_0 bt) h) (broadcastInDim S512x128 ![0, 1] bcast_S512x1_S512x128_0_1 (broadcastInDim S512x1 ![0] bcast_S512_S512x1_0 (maximumf (Host.scatterAdd scatter_S512_S50000x1_S50000_n_0_0_1 (broadcastInDim S512 ![] bcast_S_S512 (constant S_ .f32 0x00000000#32)) (broadcastInDim S50000x1 ![0] bcast_S50000_S50000x1_0 bt) (broadcastInDim S50000 ![] bcast_S_S50000 (constant S_ .f32 0x3F800000#32))) (broadcastInDim S512 ![] bcast_S_S512 (constant S_ .f32 0x3F800000#32)))))

/-- The linear classifier: the pooled rows times a 128 × 16 matrix plus a bias row. -/
def classify (p : FVec F S512x128 .f32) (lw : FVec F S128x16 .f32) (lb : FVec F S16 .f32) : FVec F S512x16 .f32 :=
  addf (Host.dotGeneral dot_S512x128_S128x16_S512x16_1_0_0_1_n_n none p lw) (broadcastInDim S512x16 ![0, 1] bcast_S1x16_S512x16_0_1 (broadcastInDim S1x16 ![1] bcast_S16_S1x16_1 lb))

/-- One layer before its activation: transform, propagate over the graph, add the bias. -/
def layer (ei : IVec S2x800000 32) (x : FVec F S50000x128 .f32) (w : FVec F S128x128 .f32) (b : FVec F S128 .f32) : FVec F S50000x128 .f32 :=
  addBias (propagate (sources ei) (targets ei) (edgeWeight ei) (transform x w)) b

/-- The whole network. -/
def network (x : FVec F S50000x128 .f32) (ei : IVec S2x800000 32) (bt : IVec S50000 32)
    (w1 : FVec F S128x128 .f32) (b1 : FVec F S128 .f32) (w2 : FVec F S128x128 .f32) (b2 : FVec F S128 .f32)
    (w3 : FVec F S128x128 .f32) (b3 : FVec F S128 .f32) (lw : FVec F S128x16 .f32) (lb : FVec F S16 .f32) : FVec F S512x16 .f32 :=
  classify (pool bt (layer ei (positivePart (layer ei (positivePart (layer ei x w1 b1)) w2 b2)) w3 b3)) lw lb

/-- The reference's result is the network of its arguments. -/
theorem result_eq (m : (ℓ : Loc nD τ sig) → Buf (Elt F) ℓ) (c : Dev nD) :
    Cert.ReferenceIdeal.ValueP.res_main_v98 m c
      = network (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) := by
  unfold Cert.ReferenceIdeal.ValueP.res_main_v98 network classify pool layer positivePart addBias propagate transform edgeWeight
    invSqrtDegree degree lookup sources targets
  rfl

end Cert.ReferenceIdeal.Stages

end
-- ==== Proof.KernelRun.lean ====
/-
  The kernel program's run with its result named.

  The program is twenty segments: stretches of host operations and eight kernel regions. The contents of the TensorCore's
  buffers at each segment boundary are a fold from the launch memory: a stretch applies its operations, a region leaves
  its arrays at what its write-backs leave and every other buffer as entered. Every weakly fair execution terminates,
  nothing faulting, and in the final state every unscoped buffer holds the last boundary's contents: in particular the
  result buffer holds the fold's value there, and each argument array is as launched.
-/
import proofs.«145221_j74741020885173_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates without a fault; the result buffer ends at the last
    boundary's contents and the argument arrays end as launched. -/
theorem run : θ_run defs (onTc (τ := τ) (main (F := F))) ⟨m, fun _ => 0, ρ⟩ (fun r => ∀ c : Dev nD,
      r.2.mem ((c.tc : Thread nD τ).loc main_v95) = W20 m ρ c (Proc.devRef .tc main_v95)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun s h c =>
      ⟨h c _ (mem_uc main_v95 (by decide)),
       (h c _ (mem_uc main_arg0 (by decide))).trans (W20_main_arg0 m ρ c),
       (h c _ (mem_uc main_arg1 (by decide))).trans (W20_main_arg1 m ρ c),
       (h c _ (mem_uc main_arg2 (by decide))).trans (W20_main_arg2 m ρ c),
       (h c _ (mem_uc main_arg3 (by decide))).trans (W20_main_arg3 m ρ c),
       (h c _ (mem_uc main_arg4 (by decide))).trans (W20_main_arg4 m ρ c),
       (h c _ (mem_uc main_arg5 (by decide))).trans (W20_main_arg5 m ρ c),
       (h c _ (mem_uc main_arg6 (by decide))).trans (W20_main_arg6 m ρ c),
       (h c _ (mem_uc main_arg7 (by decide))).trans (W20_main_arg7 m ρ c),
       (h c _ (mem_uc main_arg8 (by decide))).trans (W20_main_arg8 m ρ c),
       (h c _ (mem_uc main_arg9 (by decide))).trans (W20_main_arg9 m ρ c),
       (h c _ (mem_uc main_arg10 (by decide))).trans (W20_main_arg10 m ρ c)⟩)

end Cert.KernelIdeal.RunValue

end
-- ==== Proof.ChainHost.lean ====
/-
  The kernel program's host operations, stretch by stretch, at any float instance.

  Between its regions the kernel program runs the reference's own host operations. Each lemma reads one buffer after one
  stretch as the reference's stage of the buffers the stretch found: the graph (the edges' sources, targets and weights)
  from the edge list; a propagation over the graph from a region's product; a bias reshaped to one row; the pooled
  means, the zero-padded classifier weights and bias; the kept columns of the last region's output. A buffer that the
  segments in between do not write is carried unchanged, which is how every layer's host operations find the graph.
-/
import proofs.«145221_j74741020885173_1_alg».proof.Proof.Gen.KernelIdeal.Frame
import proofs.«145221_j74741020885173_1_alg».proof.Proof.RefStages

set_option maxRecDepth 16384

noncomputable section

namespace Cert.KernelIdeal.Host

open Cert.KernelIdeal Cert.KernelIdeal.Gen Idealize.ShloMosaic Idealize.ShloMosaic.TcCoe Idealize.ShloMosaic.StableHlo
open Idealize.SL Idealize.SL.Sem
open Cert.ReferenceIdeal.Stages

variable {F : FTy → Type} [FloatOps F]
variable (m : (ℓ : Loc nD τ sig) → Buf (Elt F) ℓ) (ρ : Dev nD → PrngReg) (c : Dev nD)

/-- A buffer that the segments walked over do not write keeps its contents: past a region by the region's frame, past a
    stretch of host operations by reading each operation's result at another buffer. -/
macro "walk_back" : tactic => `(tactic| repeat (first
  | rw [W19_of_ne _ _ _ _ (by decide)] | rw [W17_of_ne _ _ _ _ (by decide)] | rw [W12_of_ne _ _ _ _ (by decide)]
  | rw [W10_of_ne _ _ _ _ (by decide)] | rw [W9_of_ne _ _ _ _ (by decide)] | rw [W7_of_ne _ _ _ _ (by decide)]
  | rw [W6_of_ne _ _ _ _ (by decide)] | rw [W4_of_ne _ _ _ _ (by decide)]
  | (dsimp only [W20, W18, W16, W15, W14, W13, W11, W8, W5, W3, W2, W1]; after_results)))

/-- The launch contents of an argument buffer. -/
abbrev arg (b : Ref sig .tc) : Buf (Elt F) ((c : Thread nD τ).loc b) := m ((c : Thread nD τ).loc b)

/-! ## The arguments, where a later segment reads them -/

theorem arg0_at3 : W3 m ρ c (Proc.devRef .tc main_arg0) = arg m c main_arg0 := by walk_back
theorem arg3_at3 : W3 m ρ c (Proc.devRef .tc main_arg3) = arg m c main_arg3 := by walk_back
theorem arg4_at4 : W4 m ρ c (Proc.devRef .tc main_arg4) = arg m c main_arg4 := by walk_back
theorem arg5_at6 : W6 m ρ c (Proc.devRef .tc main_arg5) = arg m c main_arg5 := by walk_back
theorem arg6_at7 : W7 m ρ c (Proc.devRef .tc main_arg6) = arg m c main_arg6 := by walk_back
theorem arg7_at9 : W9 m ρ c (Proc.devRef .tc main_arg7) = arg m c main_arg7 := by walk_back
theorem arg8_at10 : W10 m ρ c (Proc.devRef .tc main_arg8) = arg m c main_arg8 := by walk_back
theorem arg2_at12 : W12 m ρ c (Proc.devRef .tc main_arg2) = arg m c main_arg2 := by walk_back
theorem arg9_at12 : W12 m ρ c (Proc.devRef .tc main_arg9) = arg m c main_arg9 := by walk_back
theorem arg10_at12 : W12 m ρ c (Proc.devRef .tc main_arg10) = arg m c main_arg10 := by walk_back

/-! ## The graph, computed once before the first region -/

set_option maxHeartbeats 1600000 in
theorem sources_at3 : W3 m ρ c (Proc.devRef .tc main_v3) = sources (arg m c main_arg1) := by
  dsimp only [W3, W2, W1]
  after_results_simp
  rfl
set_option maxHeartbeats 1600000 in
theorem targets_at3 : W3 m ρ c (Proc.devRef .tc main_v6) = targets (arg m c main_arg1) := by
  dsimp only [W3, W2, W1]
  after_results_simp
  rfl
set_option maxHeartbeats 1600000 in
theorem weights_at3 : W3 m ρ c (Proc.devRef .tc main_v29) = edgeWeight (F := F) (arg m c main_arg1) := by
  dsimp only [W3, W2, W1]
  after_results_simp
  rfl

/-! ## … and carried to where each layer's host operations read it -/

theorem sources_at4 : W4 m ρ c (Proc.devRef .tc main_v3) = sources (arg m c main_arg1) :=
  (W4_of_ne m ρ c main_v3 (by decide)).trans (sources_at3 m ρ c)
theorem targets_at4 : W4 m ρ c (Proc.devRef .tc main_v6) = targets (arg m c main_arg1) :=
  (W4_of_ne m ρ c main_v6 (by decide)).trans (targets_at3 m ρ c)
theorem weights_at4 : W4 m ρ c (Proc.devRef .tc main_v29) = edgeWeight (F := F) (arg m c main_arg1) :=
  (W4_of_ne m ρ c main_v29 (by decide)).trans (weights_at3 m ρ c)

theorem sources_at7 : W7 m ρ c (Proc.devRef .tc main_v3) = sources (arg m c main_arg1) := by
  rw [W7_of_ne _ _ _ _ (by decide), W6_of_ne _ _ _ _ (by decide)]
  dsimp only [W5]
  after_results_simp
  exact sources_at4 m ρ c
theorem sources_at10 : W10 m ρ c (Proc.devRef .tc main_v3) = sources (arg m c main_arg1) := by
  rw [W10_of_ne _ _ _ _ (by decide), W9_of_ne _ _ _ _ (by decide)]
  dsimp only [W8]
  after_results_simp
  exact sources_at7 m ρ c
theorem targets_at7 : W7 m ρ c (Proc.devRef .tc main_v6) = targets (arg m c main_arg1) := by
  rw [W7_of_ne _ _ _ _ (by decide), W6_of_ne _ _ _ _ (by decide)]
  dsimp only [W5]
  after_results_simp
  exact targets_at4 m ρ c
theorem targets_at10 : W10 m ρ c (Proc.devRef .tc main_v6) = targets (arg m c main_arg1) := by
  rw [W10_of_ne _ _ _ _ (by decide), W9_of_ne _ _ _ _ (by decide)]
  dsimp only [W8]
  after_results_simp
  exact targets_at7 m ρ c
theorem weights_at7 : W7 m ρ c (Proc.devRef .tc main_v29) = edgeWeight (F := F) (arg m c main_arg1) := by
  rw [W7_of_ne _ _ _ _ (by decide), W6_of_ne _ _ _ _ (by decide)]
  dsimp only [W5]
  after_results_simp
  exact weights_at4 m ρ c
theorem weights_at10 : W10 m ρ c (Proc.devRef .tc main_v29) = edgeWeight (F := F) (arg m c main_arg1) := by
  rw [W10_of_ne _ _ _ _ (by decide), W9_of_ne _ _ _ _ (by decide)]
  dsimp only [W8]
  after_results_simp
  exact weights_at7 m ρ c

/-! ## A layer's host operations: propagate the region's product over the graph, lay the bias out as one row -/

theorem propagated1 : W5 m ρ c (Proc.devRef .tc main_v43)
    = propagate (F := F) (sources (arg m c main_arg1)) (targets (arg m c main_arg1)) (edgeWeight (arg m c main_arg1)) (W4 m ρ c (Proc.devRef .tc main_v30)) := by
  dsimp only [W5]
  after_results_simp
  rw [sources_at4 m ρ c, targets_at4 m ρ c, weights_at4 m ρ c]
  rfl
theorem biasRow1 : W5 m ρ c (Proc.devRef .tc main_v44) = shapeCast S1x128 (arg m c main_arg4) shapeCasts_S128_S1x128 := by
  dsimp only [W5]
  after_results_simp
  rw [arg4_at4 m ρ c]
  rfl
theorem propagated2 : W8 m ρ c (Proc.devRef .tc main_v59)
    = propagate (F := F) (sources (arg m c main_arg1)) (targets (arg m c main_arg1)) (edgeWeight (arg m c main_arg1)) (W7 m ρ c (Proc.devRef .tc main_v46)) := by
  dsimp only [W8]
  after_results_simp
  rw [sources_at7 m ρ c, targets_at7 m ρ c, weights_at7 m ρ c]
  rfl
theorem biasRow2 : W8 m ρ c (Proc.devRef .tc main_v60) = shapeCast S1x128 (arg m c main_arg6) shapeCasts_S128_S1x128 := by
  dsimp only [W8]
  after_results_simp
  rw [arg6_at7 m ρ c]
  rfl
theorem propagated3 : W11 m ρ c (Proc.devRef .tc main_v75)
    = propagate (F := F) (sources (arg m c main_arg1)) (targets (arg m c main_arg1)) (edgeWeight (arg m c main_arg1)) (W10 m ρ c (Proc.devRef .tc main_v62)) := by
  dsimp only [W11]
  after_results_simp
  rw [sources_at10 m ρ c, targets_at10 m ρ c, weights_at10 m ρ c]
  rfl
theorem biasRow3 : W11 m ρ c (Proc.devRef .tc main_v76) = shapeCast S1x128 (arg m c main_arg8) shapeCasts_S128_S1x128 := by
  dsimp only [W11]
  after_results_simp
  rw [arg8_at10 m ρ c]
  rfl

/-! ## After the layers: the pooled means and the zero-padded classifier -/

/-- The padding value the program converts from an integer zero. -/
abbrev padValue : FVec F S_ .f32 := sitofp .f32 (constantI S_ 32 0#32)

set_option maxHeartbeats 1600000 in
theorem pooled_at16 : W16 m ρ c (Proc.devRef .tc main_v89) = pool (F := F) (arg m c main_arg2) (W12 m ρ c (Proc.devRef .tc main_v77)) := by
  dsimp only [W16, W15, W14, W13]
  after_results_simp
  rw [arg2_at12 m ρ c]
  rfl
set_option maxHeartbeats 1600000 in
theorem paddedWeights_at16 : W16 m ρ c (Proc.devRef .tc main_v90)
    = pad S128x128 ![0, 0] ![0, 112] ![0, 0] (arg m c main_arg9) (padValue (F := F)) pads_S128x16_S128x128_000_01120 h_S_ := by
  dsimp only [W16, W15, W14, W13]
  after_results_simp
  rw [arg9_at12 m ρ c]
  rfl
set_option maxHeartbeats 1600000 in
theorem paddedBias_at16 : W16 m ρ c (Proc.devRef .tc main_v91)
    = pad S128 ![0] ![112] ![0] (arg m c main_arg10) (padValue (F := F)) pads_S16_S128_01120 h_S_ := by
  dsimp only [W16, W15, W14, W13]
  after_results_simp
  rw [arg10_at12 m ρ c]
  rfl

/-- The padded bias as one row, after the product region. -/
theorem paddedBiasRow_at18 : W18 m ρ c (Proc.devRef .tc main_v93)
    = shapeCast S1x128 (pad S128 ![0] ![112] ![0] (arg m c main_arg10) (padValue (F := F)) pads_S16_S128_01120 h_S_) shapeCasts_S128_S1x128 := by
  dsimp only [W18]
  after_results_simp
  rw [W17_of_ne _ _ _ _ (by decide), paddedBias_at16 m ρ c]
  rfl
/-- The product region's output is still there. -/
theorem product_at18 : W18 m ρ c (Proc.devRef .tc main_v92) = W17 m ρ c (Proc.devRef .tc main_v92) := by
  dsimp only [W18]
  after_results_simp
/-- The result: columns 0 … 15 of the last region's output. -/
theorem result_at20 : W20 m ρ c (Proc.devRef .tc main_v95)
    = extractStridedSlice S512x16 ![0, 0] (W19 m ρ c (Proc.devRef .tc main_v94)) slices_S512x128_S512x16_0_0 := by
  dsimp only [W20]
  after_results_simp

end Cert.KernelIdeal.Host

end
-- ==== Proof.LibPlainProduct.lean ====
/-
  A plain matrix product `[m, k] × [k, n]` read at an index, over arbitrary sizes.

  At the extended reals a kernel's matrix product into a zero accumulator and the host's product of the same operands
  are both the textbook contraction: entry `(a, b)` is `∑ c, A (a, c) · B (c, b)`.
-/
import Idealize.ShloMosaic.Lib.StackMember
import Idealize.ShloMosaic.Lib.KernelVsHost

noncomputable section

namespace Cert.PlainProduct

open Idealize.ShloMosaic Idealize.ShloMosaic.ValueIdx Idealize.ShloMosaic.StackMember

variable {m k n : Nat} {φ₁ φ₂ : FTy}

/-- A kernel's plain product into the zero splat, at `(a, b)`: the sum over the contracted coordinate. -/
theorem matmul_plain_apply (d : DotDims ⟨2, ![m, k]⟩ ⟨2, ![k, n]⟩ ⟨2, ![m, n]⟩) (hd : d = DotDims.plain m k n)
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  subst hd
  rw [matmul_zero_eq_dotGeneral]
  exact dotGeneral_plain_apply prec A B a b

/-- The host's plain product at `(a, b)`. -/
theorem dotGeneral_plain_apply' (d : DotDims ⟨2, ![m, k]⟩ ⟨2, ![k, n]⟩ ⟨2, ![m, n]⟩) (hd : d = DotDims.plain m k n)
    (prec : Option ContractPrecision) (A : FVec Ideal ⟨2, ![m, k]⟩ φ₁) (B : FVec Ideal ⟨2, ![k, n]⟩ φ₂)
    (a : Fin m) (b : Fin n) :
    Host.dotGeneral d prec A B (ix2 a b) = ∑ c : Fin k, A (ix2 a c) * B (ix2 c b) := by
  subst hd
  exact dotGeneral_plain_apply prec A B a b

end Cert.PlainProduct

end
-- ==== Proof.Region0.lean ====
/-
  Region 0 of the kernel program: a row-tiled matrix product.

  The grid has 10 points; point `t` loads rows `5000·t … 5000·t + 4999` of the left operand (all 128 columns), the whole
  128 × 128 right operand, and stores the 5000 × 128 product of the two into the same rows of the output. At the extended
  reals the change of float format in front of the product is the identity and the product into a zero accumulator is the
  plain contraction, so entry `(p, q)` of the stored block is `∑ k, X (5000·t + p, k) · W (k, q)`: entry `(5000·t + p, q)` of the
  whole product `X · W`. The blocks tile the output's rows, so the output array ends holding `X · W`.
-/
import proofs.«145221_j74741020885173_1_alg».proof.Proof.Gen.KernelIdeal.Frame
import proofs.«145221_j74741020885173_1_alg».proof.Proof.LibPlainProduct
import Idealize.ShloMosaic.Lib.Pipeline.Value
import Idealize.ShloMosaic.Lib.ValueIdx

set_option maxRecDepth 16384

noncomputable section

namespace Cert.KernelIdeal.Region0

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem zero_offset : (![0, 0] : Fin 2 → Nat) = fun _ => 0 := funext fun a => by fin_cases a <;> rfl

/-- The index maps over the grid: the left operand's block moves with the output's along the rows, the right operand's
    block stays at the origin, and neither moves along the columns. -/
theorem index_maps : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) < 10 :=
  (by decide +kernel : ∀ t : Fin grid0.N, _)

/-- Every row block of the output is some point's. -/
theorem index_onto : ∀ b : Fin 10, ∃ t : Fin cfg0.N, win0_2.index t = ![b.val, 0] :=
  (by decide +kernel : ∀ b : Fin 10, ∃ t : Fin grid0.N, win0_2.index t = ![b.val, 0])

/-- The body's stored value at `(p, q)`: the contraction of row `p` of the left block with column `q` of the right one. -/
theorem payload_apply (x0 : Vec Ideal S5000x128 .f32) (x1 : Vec Ideal S128x128 .f32) (p : Fin 5000) (q : Fin 128) :
    k0_pay1 x0 x1 (ix2 p q) = ∑ k : Fin 128, x0 (ix2 p k) * x1 (ix2 k q) := by
  unfold k0_pay1
  exact Cert.PlainProduct.matmul_plain_apply dot_S5000x128_S128x128_S5000x128_1_0_0_1_n_n rfl none _ _ p q

/-- The whole product of the two arrays, as a function of the output's index. -/
abbrev product (X : FVec Ideal S50000x128 .f32) (W : FVec Ideal S128x128 .f32) : S50000x128.Idx → Elt Ideal .f32 :=
  Host.dotGeneral (F := Ideal) (DotDims.plain 50000 128 128) none X W

/-- What point `t` writes back is block `t` of the whole product of the two arrays as the region finds them. -/
theorem flushed_eq (c : Dev nD) (t : Fin cfg0.N) :
    (dat0 V c).flushed 2 t = ((cfg0.win 2).blk t).view.read (Elt Ideal)
      (product (V c main_arg0) (V c main_arg3)) := by
  show (cfg0.win 2).cut (grid0.coords t) ((dat0 V c).after 2 t) = _
  rw [after0_2]
  unfold out0_2
  rw [View.canon_unit_zero zero_offset]
  simp only [View.ld_unit_zero (S := S5000x128) zero_offset, View.ld_unit_zero (S := S128x128) zero_offset]
  obtain ⟨e0, e1, e2, e3, e4, e5⟩ := index_maps t
  funext j
  obtain ⟨p, q, rfl⟩ : ∃ (p : Fin 5000) (q : Fin 128), j = ix2 p q := ⟨j 0, j 1, eq_ix2 j⟩
  have hp : p.val < 5000 := p.isLt
  have hrow : win0_2.index t (0 : Fin 2) * 5000 + p.val < 50000 := by omega
  have hout : ((cfg0.win 2).blk t).view.emb (ix2 p q)
      = ix2 (⟨win0_2.index t (0 : Fin 2) * 5000 + p.val, hrow⟩ : Fin 50000) q := by
    funext a; apply Fin.ext
    match a with
    | ⟨0, _⟩ => show win0_2.index t (0 : Fin 2) * 5000 + 1 * p.val = win0_2.index t (0 : Fin 2) * 5000 + p.val; omega
    | ⟨1, _⟩ => show win0_2.index t (1 : Fin 2) * 128 + 1 * q.val = q.val; omega
  show k0_pay1 (iblk0 V c 0 t) (iblk0 V c 1 t) (ix2 p q)
    = product (V c main_arg0) (V c main_arg3) (((cfg0.win 2).blk t).view.emb (ix2 p q))
  rw [hout]
  refine (payload_apply (iblk0 V c 0 t) (iblk0 V c 1 t) p q).trans ?_
  refine Eq.trans ?_ (Cert.PlainProduct.dotGeneral_plain_apply' (DotDims.plain 50000 128 128) rfl none (V c main_arg0) (V c main_arg3) _ q).symm
  refine Finset.sum_congr rfl fun k _ => ?_
  have hx : iblk0 V c 0 t (ix2 p k)
      = V c main_arg0 (ix2 (⟨win0_2.index t (0 : Fin 2) * 5000 + p.val, hrow⟩ : Fin 50000) k) := by
    show V c main_arg0 (((cfg0.win 0).blk t).view.emb (ix2 p k)) = _
    refine congrArg _ (funext fun a => Fin.ext ?_)
    match a with
    | ⟨0, _⟩ => show win0_0.index t (0 : Fin 2) * 5000 + 1 * p.val = win0_2.index t (0 : Fin 2) * 5000 + p.val; omega
    | ⟨1, _⟩ => show win0_0.index t (1 : Fin 2) * 128 + 1 * k.val = k.val; omega
  have hw : iblk0 V c 1 t (ix2 k q) = V c main_arg3 (ix2 k q) := by
    show V c main_arg3 (((cfg0.win 1).blk t).view.emb (ix2 k q)) = _
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * q.val = q.val; omega
  rw [hx, hw]

/-- An index of the output is in point `t`'s block iff each coordinate is in the block's range on its axis. -/
theorem mem_block (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v30).slice (win0_2.rect t)).set ↔ _
  rw [View.set_slice_whole, Rect.mem_set_unit]
  exact Iff.rfl

/-- The blocks tile the output: row `r` is in the block of the point whose row block is `r / 5000`. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := index_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The output array after the region: the product of the two input arrays as the region finds them. -/
theorem result (c : Dev nD) :
    (dat0 V c).arrAt 2 cfg0.N
      = product (V c main_arg0) (V c main_arg3) :=
  (dat0 V c).arrAt_eq_of_cover 2 _ (fun t _ => flushed_eq V c t) cover

end Cert.KernelIdeal.Region0

end
-- ==== Proof.Region1.lean ====
/-
  Region 1 of the kernel program: a bias row added to every row, then the positive part.

  The grid has 10 points; point `t` loads rows `5000·t … 5000·t + 4999` of the matrix operand and the whole one-row bias, repeats
  the bias down the block's rows, adds, takes the maximum with zero and stores the block into the same rows of the output. Every operation is
  pointwise, so entry `(5000·t + p, q)` of the output is `max (X (5000·t + p, q) + B (0, q)) 0`: the output array ends holding the same
  expression of the whole arrays, the bias repeated down all 50000 rows.
-/
import proofs.«145221_j74741020885173_1_alg».proof.Proof.Gen.KernelIdeal.Frame
import Idealize.ShloMosaic.Lib.KernelVsHost
import Idealize.ShloMosaic.Lib.Pipeline.Value
import Idealize.ShloMosaic.Lib.ValueIdx

set_option maxRecDepth 16384

noncomputable section

namespace Cert.KernelIdeal.Region1

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem zero_offset : (![0, 0] : Fin 2 → Nat) = fun _ => 0 := funext fun a => by fin_cases a <;> rfl

theorem row_bcast : S1x128.BroadcastsInDim S50000x128 (![0, 1] : Fin 2 → Fin S50000x128.rank) := by decide
theorem splat_bcast : S_.BroadcastsInDim S50000x128 (![] : Fin 0 → Fin S50000x128.rank) := by decide

/-- The whole-array function the region computes: the one-row bias repeated down the rows and added, then the maximum with zero. -/
def spec {F : FTy → Type} [FloatOps F] (X : FVec F S50000x128 .f32) (B : FVec F S1x128 .f32) : FVec F S50000x128 .f32 :=
  maximumf (addf X (broadcastInDim S50000x128 ![0, 1] row_bcast B)) (broadcastInDim S50000x128 ![] splat_bcast (constant S_ .f32 0x00000000#32))

/-- The same at the extended reals, as a function of the output's index. -/
abbrev G (X : S50000x128.Idx → Elt Ideal .f32) (B : S1x128.Idx → Elt Ideal .f32) : S50000x128.Idx → Elt Ideal .f32 :=
  spec (F := Ideal) X B

/-- That function at `(r, q)`. -/
theorem spec_apply (X : FVec Ideal S50000x128 .f32) (B : FVec Ideal S1x128 .f32) (r : Fin 50000) (q : Fin 128) :
    spec X B (ix2 r q) = max (X (ix2 r q) + B (ix2 (0 : Fin 1) q)) (Ideal.ofBits .f32 0x00000000#32) := by
  unfold spec
  show max (X (ix2 r q) + broadcastInDim S50000x128 ![0, 1] row_bcast B (ix2 r q)) (broadcastInDim S50000x128 ![] splat_bcast (constant (F := Ideal) S_ .f32 0x00000000#32) (ix2 r q)) = _
  rw [broadcastInDim_oneRow_apply row_bcast B r q]
  rw [broadcastInDim_apply ![] splat_bcast (constant (F := Ideal) S_ .f32 0x00000000#32) (ix2 r q) ix0 (fun a => a.elim0)]
  rfl

/-- The index maps over the grid: the matrix operand's block moves with the output's along the rows, the bias block stays
    at the origin, and neither moves along the columns. -/
theorem index_maps : ∀ t : Fin cfg1.N, win1_0.index t (0 : Fin 2) = win1_2.index t (0 : Fin 2)
    ∧ win1_0.index t (1 : Fin 2) = 0 ∧ win1_1.index t (0 : Fin 2) = 0 ∧ win1_1.index t (1 : Fin 2) = 0
    ∧ win1_2.index t (1 : Fin 2) = 0 ∧ win1_2.index t (0 : Fin 2) < 10 :=
  (by decide +kernel : ∀ t : Fin grid1.N, _)

/-- Every row block of the output is some point's. -/
theorem index_onto : ∀ b : Fin 10, ∃ t : Fin cfg1.N, win1_2.index t = ![b.val, 0] :=
  (by decide +kernel : ∀ b : Fin 10, ∃ t : Fin grid1.N, win1_2.index t = ![b.val, 0])

/-- The body's stored value at `(p, q)`. -/
theorem payload_apply (x0 : Vec Ideal S5000x128 .f32) (x1 : Vec Ideal S1x128 .f32) (p : Fin 5000) (q : Fin 128) :
    k1_pay1 x0 x1 (ix2 p q) = max (x0 (ix2 p q) + x1 (ix2 (0 : Fin 1) q)) (Ideal.ofBits .f32 0x00000000#32) := by
  have e0 : shapeCast S5000x128 x0 shapeCasts_S5000x128_S5000x128 = x0 := shapeCast_self _ _
  have e1 : shapeCast S1x128 x1 shapeCasts_S1x128_S1x128 = x1 := shapeCast_self _ _
  have hb : broadcastTo S5000x128 x1 broadcasts_S1x128_S5000x128 (ix2 p q) = x1 (ix2 (0 : Fin 1) q) :=
    broadcastTo_apply x1 broadcasts_S1x128_S5000x128 (ix2 p q) (ix2 (0 : Fin 1) q) (by
      intro a
      match a with
      | ⟨0, _⟩ => rfl
      | ⟨1, _⟩ => rfl)
  unfold k1_pay1
  simp only [e0, e1]
  show max (x0 (ix2 p q) + broadcastTo S5000x128 x1 broadcasts_S1x128_S5000x128 (ix2 p q)) _ = _
  rw [hb]
  rfl

/-- What point `t` writes back is block `t` of that function of the two arrays as the region finds them. -/
theorem flushed_eq (c : Dev nD) (t : Fin cfg1.N) :
    (dat1 V c).flushed 2 t = ((cfg1.win 2).blk t).view.read (Elt Ideal) (G (V c main_v43) (V c main_v44)) := by
  show (cfg1.win 2).cut (grid1.coords t) ((dat1 V c).after 2 t) = _
  rw [after1_2]
  unfold out1_2
  rw [View.canon_unit_zero zero_offset]
  simp only [View.ld_unit_zero (S := S5000x128) zero_offset, View.ld_unit_zero (S := S1x128) zero_offset]
  obtain ⟨e0, e1, e2, e3, e4, e5⟩ := index_maps t
  funext j
  obtain ⟨p, q, rfl⟩ : ∃ (p : Fin 5000) (q : Fin 128), j = ix2 p q := ⟨j 0, j 1, eq_ix2 j⟩
  have hp : p.val < 5000 := p.isLt
  have hrow : win1_2.index t (0 : Fin 2) * 5000 + p.val < 50000 := by omega
  have hout : ((cfg1.win 2).blk t).view.emb (ix2 p q)
      = ix2 (⟨win1_2.index t (0 : Fin 2) * 5000 + p.val, hrow⟩ : Fin 50000) q := by
    funext a; apply Fin.ext
    match a with
    | ⟨0, _⟩ => show win1_2.index t (0 : Fin 2) * 5000 + 1 * p.val = win1_2.index t (0 : Fin 2) * 5000 + p.val; omega
    | ⟨1, _⟩ => show win1_2.index t (1 : Fin 2) * 128 + 1 * q.val = q.val; omega
  show k1_pay1 (iblk1 V c 0 t) (iblk1 V c 1 t) (ix2 p q)
    = G (V c main_v43) (V c main_v44) (((cfg1.win 2).blk t).view.emb (ix2 p q))
  rw [hout]
  refine (payload_apply (iblk1 V c 0 t) (iblk1 V c 1 t) p q).trans ?_
  refine Eq.trans ?_ (spec_apply (V c main_v43) (V c main_v44) _ q).symm
  have hx : iblk1 V c 0 t (ix2 p q)
      = V c main_v43 (ix2 (⟨win1_2.index t (0 : Fin 2) * 5000 + p.val, hrow⟩ : Fin 50000) q) := by
    show V c main_v43 (((cfg1.win 0).blk t).view.emb (ix2 p q)) = _
    refine congrArg _ (funext fun a => Fin.ext ?_)
    match a with
    | ⟨0, _⟩ => show win1_0.index t (0 : Fin 2) * 5000 + 1 * p.val = win1_2.index t (0 : Fin 2) * 5000 + p.val; omega
    | ⟨1, _⟩ => show win1_0.index t (1 : Fin 2) * 128 + 1 * q.val = q.val; omega
  have hw : iblk1 V c 1 t (ix2 (0 : Fin 1) q) = V c main_v44 (ix2 (0 : Fin 1) q) := by
    show V c main_v44 (((cfg1.win 1).blk t).view.emb (ix2 (0 : Fin 1) q)) = _
    refine congrArg _ (funext fun a => Fin.ext ?_)
    match a with
    | ⟨0, _⟩ => show win1_1.index t (0 : Fin 2) * 1 + 1 * 0 = 0; omega
    | ⟨1, _⟩ => show win1_1.index t (1 : Fin 2) * 128 + 1 * q.val = q.val; omega
  rw [hx, hw]

/-- An index of the output is in point `t`'s block iff each coordinate is in the block's range on its axis. -/
theorem mem_block (t : Fin cfg1.N) (i : S50000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v45).slice (win1_2.rect t)).set ↔ _
  rw [View.set_slice_whole, Rect.mem_set_unit]
  exact Iff.rfl

/-- The blocks tile the output: row `r` is in the block of the point whose row block is `r / 5000`. -/
theorem cover (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ := index_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_block]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- The output array after the region. -/
theorem result (c : Dev nD) : (dat1 V c).arrAt 2 cfg1.N = G (V c main_v43) (V c main_v44) :=
  (dat1 V c).arrAt_eq_of_cover 2 _ (fun t _ => flushed_eq V c t) cover

end Cert.KernelIdeal.Region1

end
-- ==== Proof.Region2.lean ====
/-
  Region 2 of the kernel program: a row-tiled matrix product.

  The grid has 10 points; point `t` loads rows `5000·t … 5000·t + 4999` of the left operand (all 128 columns), the whole
  128 × 128 right operand, and stores the 5000 × 128 product of the two into the same rows of the output. At the extended
  reals the body's cast to the same shape and the change of float format in front of the product is the identity and the product into a zero accumulator is the
  plain contraction, so entry `(p, q)` of the stored block is `∑ k, X (5000·t + p, k) · W (k, q)`: entry `(5000·t + p, q)` of the
  whole product `X · W`. The blocks tile the output's rows, so the output array ends holding `X · W`.
-/
import proofs.«145221_j74741020885173_1_alg».proof.Proof.Gen.KernelIdeal.Frame
import proofs.«145221_j74741020885173_1_alg».proof.Proof.LibPlainProduct
import Idealize.ShloMosaic.Lib.Pipeline.Value
import Idealize.ShloMosaic.Lib.ValueIdx

set_option maxRecDepth 16384

noncomputable section

namespace Cert.KernelIdeal.Region2

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem zero_offset : (![0, 0] : Fin 2 → Nat) = fun _ => 0 := funext fun a => by fin_cases a <;> rfl

/-- The index maps over the grid: the left operand's block moves with the output's along the rows, the right operand's
    block stays at the origin, and neither moves along the columns. -/
theorem index_maps : ∀ t : Fin cfg2.N, win2_0.index t (0 : Fin 2) = win2_2.index t (0 : Fin 2)
    ∧ win2_0.index t (1 : Fin 2) = 0 ∧ win2_1.index t (0 : Fin 2) = 0 ∧ win2_1.index t (1 : Fin 2) = 0
    ∧ win2_2.index t (1 : Fin 2) = 0 ∧ win2_2.index t (0 : Fin 2) < 10 :=
  (by decide +kernel : ∀ t : Fin grid2.N, _)

/-- Every row block of the output is some point's. -/
theorem index_onto : ∀ b : Fin 10, ∃ t : Fin cfg2.N, win2_2.index t = ![b.val, 0] :=
  (by decide +kernel : ∀ b : Fin 10, ∃ t : Fin grid2.N, win2_2.index t = ![b.val, 0])

/-- The body's stored value at `(p, q)`: the contraction of row `p` of the left block with column `q` of the right one. -/
theorem payload_apply (x0 : Vec Ideal S5000x128 .f32) (x1 : Vec Ideal S128x128 .f32) (p : Fin 5000) (q : Fin 128) :
    k2_pay1 x0 x1 (ix2 p q) = ∑ k : Fin 128, x0 (ix2 p k) * x1 (ix2 k q) := by
  have e0 : shapeCast S5000x128 x0 shapeCasts_S5000x128_S5000x128 = x0 := shapeCast_self _ _
  unfold k2_pay1
  simp only [e0]
  exact Cert.PlainProduct.matmul_plain_apply dot_S5000x128_S128x128_S5000x128_1_0_0_1_n_n rfl none _ _ p q

/-- The whole product of the two arrays, as a function of the output's index. -/
abbrev product (X : FVec Ideal S50000x128 .f32) (W : FVec Ideal S128x128 .f32) : S50000x128.Idx → Elt Ideal .f32 :=
  Host.dotGeneral (F := Ideal) (DotDims.plain 50000 128 128) none X W

/-- What point `t` writes back is block `t` of the whole product of the two arrays as the region finds them. -/
theorem flushed_eq (c : Dev nD) (t : Fin cfg2.N) :
    (dat2 V c).flushed 2 t = ((cfg2.win 2).blk t).view.read (Elt Ideal)
      (product (V c main_v45) (V c main_arg5)) := by
  show (cfg2.win 2).cut (grid2.coords t) ((dat2 V c).after 2 t) = _
  rw [after2_2]
  unfold out2_2
  rw [View.canon_unit_zero zero_offset]
  simp only [View.ld_unit_zero (S := S5000x128) zero_offset, View.ld_unit_zero (S := S128x128) zero_offset]
  obtain ⟨e0, e1, e2, e3, e4, e5⟩ := index_maps t
  funext j
  obtain ⟨p, q, rfl⟩ : ∃ (p : Fin 5000) (q : Fin 128), j = ix2 p q := ⟨j 0, j 1, eq_ix2 j⟩
  have hp : p.val < 5000 := p.isLt
  have hrow : win2_2.index t (0 : Fin 2) * 5000 + p.val < 50000 := by omega
  have hout : ((cfg2.win 2).blk t).view.emb (ix2 p q)
      = ix2 (⟨win2_2.index t (0 : Fin 2) * 5000 + p.val, hrow⟩ : Fin 50000) q := by
    funext a; apply Fin.ext
    match a with
    | ⟨0, _⟩ => show win2_2.index t (0 : Fin 2) * 5000 + 1 * p.val = win2_2.index t (0 : Fin 2) * 5000 + p.val; omega
    | ⟨1, _⟩ => show win2_2.index t (1 : Fin 2) * 128 + 1 * q.val = q.val; omega
  show k2_pay1 (iblk2 V c 0 t) (iblk2 V c 1 t) (ix2 p q)
    = product (V c main_v45) (V c main_arg5) (((cfg2.win 2).blk t).view.emb (ix2 p q))
  rw [hout]
  refine (payload_apply (iblk2 V c 0 t) (iblk2 V c 1 t) p q).trans ?_
  refine Eq.trans ?_ (Cert.PlainProduct.dotGeneral_plain_apply' (DotDims.plain 50000 128 128) rfl none (V c main_v45) (V c main_arg5) _ q).symm
  refine Finset.sum_congr rfl fun k _ => ?_
  have hx : iblk2 V c 0 t (ix2 p k)
      = V c main_v45 (ix2 (⟨win2_2.index t (0 : Fin 2) * 5000 + p.val, hrow⟩ : Fin 50000) k) := by
    show V c main_v45 (((cfg2.win 0).blk t).view.emb (ix2 p k)) = _
    refine congrArg _ (funext fun a => Fin.ext ?_)
    match a with
    | ⟨0, _⟩ => show win2_0.index t (0 : Fin 2) * 5000 + 1 * p.val = win2_2.index t (0 : Fin 2) * 5000 + p.val; omega
    | ⟨1, _⟩ => show win2_0.index t (1 : Fin 2) * 128 + 1 * k.val = k.val; omega
  have hw : iblk2 V c 1 t (ix2 k q) = V c main_arg5 (ix2 k q) := by
    show V c main_arg5 (((cfg2.win 1).blk t).view.emb (ix2 k q)) = _
    refine congrArg _ (funext fun a => Fin.ext ?_)
    match a with
    | ⟨0, _⟩ => show win2_1.index t (0 : Fin 2) * 128 + 1 * k.val = k.val; omega
    | ⟨1, _⟩ => show win2_1.index t (1 : Fin 2) * 128 + 1 * q.val = q.val; omega
  rw [hx, hw]

/-- An index of the output is in point `t`'s block iff each coordinate is in the block's range on its axis. -/
theorem mem_block (t : Fin cfg2.N) (i : S50000x128.Idx) :
    i ∈ ((cfg2.win 2).blk t).view.set ↔ ∀ a : Fin 2, win2_2.index t a * S5000x128.size a ≤ (i a).val
      ∧ (i a).val < win2_2.index t a * S5000x128.size a + S5000x128.size a := by
  show i ∈ ((View.whole main_v46).slice (win2_2.rect t)).set ↔ _
  rw [View.set_slice_whole, Rect.mem_set_unit]
  exact Iff.rfl

/-- The blocks tile the output: row `r` is in the block of the point whose row block is `r / 5000`. -/
theorem cover (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  obtain ⟨t, ht⟩ := index_onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_block]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- The output array after the region: the product of the two input arrays as the region finds them. -/
theorem result (c : Dev nD) :
    (dat2 V c).arrAt 2 cfg2.N
      = product (V c main_v45) (V c main_arg5) :=
  (dat2 V c).arrAt_eq_of_cover 2 _ (fun t _ => flushed_eq V c t) cover

end Cert.KernelIdeal.Region2

end
-- ==== Proof.Region3.lean ====
/-
  Region 3 of the kernel program: a bias row added to every row, then the positive part.

  The grid has 10 points; point `t` loads rows `5000·t … 5000·t + 4999` of the matrix operand and the whole one-row bias, repeats
  the bias down the block's rows, adds, takes the maximum with zero and stores the block into the same rows of the output. Every operation is
  pointwise, so entry `(5000·t + p, q)` of the output is `max (X (5000·t + p, q) + B (0, q)) 0`: the output array ends holding the same
  expression of the whole arrays, the bias repeated down all 50000 rows.
-/
import proofs.«145221_j74741020885173_1_alg».proof.Proof.Gen.KernelIdeal.Frame
import Idealize.ShloMosaic.Lib.KernelVsHost
import Idealize.ShloMosaic.Lib.Pipeline.Value
import Idealize.ShloMosaic.Lib.ValueIdx

set_option maxRecDepth 16384

noncomputable section

namespace Cert.KernelIdeal.Region3

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem zero_offset : (![0, 0] : Fin 2 → Nat) = fun _ => 0 := funext fun a => by fin_cases a <;> rfl

theorem row_bcast : S1x128.BroadcastsInDim S50000x128 (![0, 1] : Fin 2 → Fin S50000x128.rank) := by decide
theorem splat_bcast : S_.BroadcastsInDim S50000x128 (![] : Fin 0 → Fin S50000x128.rank) := by decide

/-- The whole-array function the region computes: the one-row bias repeated down the rows and added, then the maximum with zero. -/
def spec {F : FTy → Type} [FloatOps F] (X : FVec F S50000x128 .f32) (B : FVec F S1x128 .f32) : FVec F S50000x128 .f32 :=
  maximumf (addf X (broadcastInDim S50000x128 ![0, 1] row_bcast B)) (broadcastInDim S50000x128 ![] splat_bcast (constant S_ .f32 0x00000000#32))

/-- The same at the extended reals, as a function of the output's index. -/
abbrev G (X : S50000x128.Idx → Elt Ideal .f32) (B : S1x128.Idx → Elt Ideal .f32) : S50000x128.Idx → Elt Ideal .f32 :=
  spec (F := Ideal) X B

/-- That function at `(r, q)`. -/
theorem spec_apply (X : FVec Ideal S50000x128 .f32) (B : FVec Ideal S1x128 .f32) (r : Fin 50000) (q : Fin 128) :
    spec X B (ix2 r q) = max (X (ix2 r q) + B (ix2 (0 : Fin 1) q)) (Ideal.ofBits .f32 0x00000000#32) := by
  unfold spec
  show max (X (ix2 r q) + broadcastInDim S50000x128 ![0, 1] row_bcast B (ix2 r q)) (broadcastInDim S50000x128 ![] splat_bcast (constant (F := Ideal) S_ .f32 0x00000000#32) (ix2 r q)) = _
  rw [broadcastInDim_oneRow_apply row_bcast B r q]
  rw [broadcastInDim_apply ![] splat_bcast (constant (F := Ideal) S_ .f32 0x00000000#32) (ix2 r q) ix0 (fun a => a.elim0)]
  rfl

/-- The index maps over the grid: the matrix operand's block moves with the output's along the rows, the bias block stays
    at the origin, and neither moves along the columns. -/
theorem index_maps : ∀ t : Fin cfg3.N, win3_0.index t (0 : Fin 2) = win3_2.index t (0 : Fin 2)
    ∧ win3_0.index t (1 : Fin 2) = 0 ∧ win3_1.index t (0 : Fin 2) = 0 ∧ win3_1.index t (1 : Fin 2) = 0
    ∧ win3_2.index t (1 : Fin 2) = 0 ∧ win3_2.index t (0 : Fin 2) < 10 :=
  (by decide +kernel : ∀ t : Fin grid3.N, _)

/-- Every row block of the output is some point's. -/
theorem index_onto : ∀ b : Fin 10, ∃ t : Fin cfg3.N, win3_2.index t = ![b.val, 0] :=
  (by decide +kernel : ∀ b : Fin 10, ∃ t : Fin grid3.N, win3_2.index t = ![b.val, 0])

/-- The body's stored value at `(p, q)`. -/
theorem payload_apply (x0 : Vec Ideal S5000x128 .f32) (x1 : Vec Ideal S1x128 .f32) (p : Fin 5000) (q : Fin 128) :
    k3_pay1 x0 x1 (ix2 p q) = max (x0 (ix2 p q) + x1 (ix2 (0 : Fin 1) q)) (Ideal.ofBits .f32 0x00000000#32) := by
  have e0 : shapeCast S5000x128 x0 shapeCasts_S5000x128_S5000x128 = x0 := shapeCast_self _ _
  have e1 : shapeCast S1x128 x1 shapeCasts_S1x128_S1x128 = x1 := shapeCast_self _ _
  have hb : broadcastTo S5000x128 x1 broadcasts_S1x128_S5000x128 (ix2 p q) = x1 (ix2 (0 : Fin 1) q) :=
    broadcastTo_apply x1 broadcasts_S1x128_S5000x128 (ix2 p q) (ix2 (0 : Fin 1) q) (by
      intro a
      match a with
      | ⟨0, _⟩ => rfl
      | ⟨1, _⟩ => rfl)
  unfold k3_pay1
  simp only [e0, e1]
  show max (x0 (ix2 p q) + broadcastTo S5000x128 x1 broadcasts_S1x128_S5000x128 (ix2 p q)) _ = _
  rw [hb]
  rfl

/-- What point `t` writes back is block `t` of that function of the two arrays as the region finds them. -/
theorem flushed_eq (c : Dev nD) (t : Fin cfg3.N) :
    (dat3 V c).flushed 2 t = ((cfg3.win 2).blk t).view.read (Elt Ideal) (G (V c main_v59) (V c main_v60)) := by
  show (cfg3.win 2).cut (grid3.coords t) ((dat3 V c).after 2 t) = _
  rw [after3_2]
  unfold out3_2
  rw [View.canon_unit_zero zero_offset]
  simp only [View.ld_unit_zero (S := S5000x128) zero_offset, View.ld_unit_zero (S := S1x128) zero_offset]
  obtain ⟨e0, e1, e2, e3, e4, e5⟩ := index_maps t
  funext j
  obtain ⟨p, q, rfl⟩ : ∃ (p : Fin 5000) (q : Fin 128), j = ix2 p q := ⟨j 0, j 1, eq_ix2 j⟩
  have hp : p.val < 5000 := p.isLt
  have hrow : win3_2.index t (0 : Fin 2) * 5000 + p.val < 50000 := by omega
  have hout : ((cfg3.win 2).blk t).view.emb (ix2 p q)
      = ix2 (⟨win3_2.index t (0 : Fin 2) * 5000 + p.val, hrow⟩ : Fin 50000) q := by
    funext a; apply Fin.ext
    match a with
    | ⟨0, _⟩ => show win3_2.index t (0 : Fin 2) * 5000 + 1 * p.val = win3_2.index t (0 : Fin 2) * 5000 + p.val; omega
    | ⟨1, _⟩ => show win3_2.index t (1 : Fin 2) * 128 + 1 * q.val = q.val; omega
  show k3_pay1 (iblk3 V c 0 t) (iblk3 V c 1 t) (ix2 p q)
    = G (V c main_v59) (V c main_v60) (((cfg3.win 2).blk t).view.emb (ix2 p q))
  rw [hout]
  refine (payload_apply (iblk3 V c 0 t) (iblk3 V c 1 t) p q).trans ?_
  refine Eq.trans ?_ (spec_apply (V c main_v59) (V c main_v60) _ q).symm
  have hx : iblk3 V c 0 t (ix2 p q)
      = V c main_v59 (ix2 (⟨win3_2.index t (0 : Fin 2) * 5000 + p.val, hrow⟩ : Fin 50000) q) := by
    show V c main_v59 (((cfg3.win 0).blk t).view.emb (ix2 p q)) = _
    refine congrArg _ (funext fun a => Fin.ext ?_)
    match a with
    | ⟨0, _⟩ => show win3_0.index t (0 : Fin 2) * 5000 + 1 * p.val = win3_2.index t (0 : Fin 2) * 5000 + p.val; omega
    | ⟨1, _⟩ => show win3_0.index t (1 : Fin 2) * 128 + 1 * q.val = q.val; omega
  have hw : iblk3 V c 1 t (ix2 (0 : Fin 1) q) = V c main_v60 (ix2 (0 : Fin 1) q) := by
    show V c main_v60 (((cfg3.win 1).blk t).view.emb (ix2 (0 : Fin 1) q)) = _
    refine congrArg _ (funext fun a => Fin.ext ?_)
    match a with
    | ⟨0, _⟩ => show win3_1.index t (0 : Fin 2) * 1 + 1 * 0 = 0; omega
    | ⟨1, _⟩ => show win3_1.index t (1 : Fin 2) * 128 + 1 * q.val = q.val; omega
  rw [hx, hw]

/-- An index of the output is in point `t`'s block iff each coordinate is in the block's range on its axis. -/
theorem mem_block (t : Fin cfg3.N) (i : S50000x128.Idx) :
    i ∈ ((cfg3.win 2).blk t).view.set ↔ ∀ a : Fin 2, win3_2.index t a * S5000x128.size a ≤ (i a).val
      ∧ (i a).val < win3_2.index t a * S5000x128.size a + S5000x128.size a := by
  show i ∈ ((View.whole main_v61).slice (win3_2.rect t)).set ↔ _
  rw [View.set_slice_whole, Rect.mem_set_unit]
  exact Iff.rfl

/-- The blocks tile the output: row `r` is in the block of the point whose row block is `r / 5000`. -/
theorem cover (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  obtain ⟨t, ht⟩ := index_onto ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [mem_block]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- The output array after the region. -/
theorem result (c : Dev nD) : (dat3 V c).arrAt 2 cfg3.N = G (V c main_v59) (V c main_v60) :=
  (dat3 V c).arrAt_eq_of_cover 2 _ (fun t _ => flushed_eq V c t) cover

end Cert.KernelIdeal.Region3

end
-- ==== Proof.Region4.lean ====
/-
  Region 4 of the kernel program: a row-tiled matrix product.

  The grid has 10 points; point `t` loads rows `5000·t … 5000·t + 4999` of the left operand (all 128 columns), the whole
  128 × 128 right operand, and stores the 5000 × 128 product of the two into the same rows of the output. At the extended
  reals the body's cast to the same shape and the change of float format in front of the product is the identity and the product into a zero accumulator is the
  plain contraction, so entry `(p, q)` of the stored block is `∑ k, X (5000·t + p, k) · W (k, q)`: entry `(5000·t + p, q)` of the
  whole product `X · W`. The blocks tile the output's rows, so the output array ends holding `X · W`.
-/
import proofs.«145221_j74741020885173_1_alg».proof.Proof.Gen.KernelIdeal.Frame
import proofs.«145221_j74741020885173_1_alg».proof.Proof.LibPlainProduct
import Idealize.ShloMosaic.Lib.Pipeline.Value
import Idealize.ShloMosaic.Lib.ValueIdx

set_option maxRecDepth 16384

noncomputable section

namespace Cert.KernelIdeal.Region4

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem zero_offset : (![0, 0] : Fin 2 → Nat) = fun _ => 0 := funext fun a => by fin_cases a <;> rfl

/-- The index maps over the grid: the left operand's block moves with the output's along the rows, the right operand's
    block stays at the origin, and neither moves along the columns. -/
theorem index_maps : ∀ t : Fin cfg4.N, win4_0.index t (0 : Fin 2) = win4_2.index t (0 : Fin 2)
    ∧ win4_0.index t (1 : Fin 2) = 0 ∧ win4_1.index t (0 : Fin 2) = 0 ∧ win4_1.index t (1 : Fin 2) = 0
    ∧ win4_2.index t (1 : Fin 2) = 0 ∧ win4_2.index t (0 : Fin 2) < 10 :=
  (by decide +kernel : ∀ t : Fin grid4.N, _)

/-- Every row block of the output is some point's. -/
theorem index_onto : ∀ b : Fin 10, ∃ t : Fin cfg4.N, win4_2.index t = ![b.val, 0] :=
  (by decide +kernel : ∀ b : Fin 10, ∃ t : Fin grid4.N, win4_2.index t = ![b.val, 0])

/-- The body's stored value at `(p, q)`: the contraction of row `p` of the left block with column `q` of the right one. -/
theorem payload_apply (x0 : Vec Ideal S5000x128 .f32) (x1 : Vec Ideal S128x128 .f32) (p : Fin 5000) (q : Fin 128) :
    k4_pay1 x0 x1 (ix2 p q) = ∑ k : Fin 128, x0 (ix2 p k) * x1 (ix2 k q) := by
  have e0 : shapeCast S5000x128 x0 shapeCasts_S5000x128_S5000x128 = x0 := shapeCast_self _ _
  unfold k4_pay1
  simp only [e0]
  exact Cert.PlainProduct.matmul_plain_apply dot_S5000x128_S128x128_S5000x128_1_0_0_1_n_n rfl none _ _ p q

/-- The whole product of the two arrays, as a function of the output's index. -/
abbrev product (X : FVec Ideal S50000x128 .f32) (W : FVec Ideal S128x128 .f32) : S50000x128.Idx → Elt Ideal .f32 :=
  Host.dotGeneral (F := Ideal) (DotDims.plain 50000 128 128) none X W

/-- What point `t` writes back is block `t` of the whole product of the two arrays as the region finds them. -/
theorem flushed_eq (c : Dev nD) (t : Fin cfg4.N) :
    (dat4 V c).flushed 2 t = ((cfg4.win 2).blk t).view.read (Elt Ideal)
      (product (V c main_v61) (V c main_arg7)) := by
  show (cfg4.win 2).cut (grid4.coords t) ((dat4 V c).after 2 t) = _
  rw [after4_2]
  unfold out4_2
  rw [View.canon_unit_zero zero_offset]
  simp only [View.ld_unit_zero (S := S5000x128) zero_offset, View.ld_unit_zero (S := S128x128) zero_offset]
  obtain ⟨e0, e1, e2, e3, e4, e5⟩ := index_maps t
  funext j
  obtain ⟨p, q, rfl⟩ : ∃ (p : Fin 5000) (q : Fin 128), j = ix2 p q := ⟨j 0, j 1, eq_ix2 j⟩
  have hp : p.val < 5000 := p.isLt
  have hrow : win4_2.index t (0 : Fin 2) * 5000 + p.val < 50000 := by omega
  have hout : ((cfg4.win 2).blk t).view.emb (ix2 p q)
      = ix2 (⟨win4_2.index t (0 : Fin 2) * 5000 + p.val, hrow⟩ : Fin 50000) q := by
    funext a; apply Fin.ext
    match a with
    | ⟨0, _⟩ => show win4_2.index t (0 : Fin 2) * 5000 + 1 * p.val = win4_2.index t (0 : Fin 2) * 5000 + p.val; omega
    | ⟨1, _⟩ => show win4_2.index t (1 : Fin 2) * 128 + 1 * q.val = q.val; omega
  show k4_pay1 (iblk4 V c 0 t) (iblk4 V c 1 t) (ix2 p q)
    = product (V c main_v61) (V c main_arg7) (((cfg4.win 2).blk t).view.emb (ix2 p q))
  rw [hout]
  refine (payload_apply (iblk4 V c 0 t) (iblk4 V c 1 t) p q).trans ?_
  refine Eq.trans ?_ (Cert.PlainProduct.dotGeneral_plain_apply' (DotDims.plain 50000 128 128) rfl none (V c main_v61) (V c main_arg7) _ q).symm
  refine Finset.sum_congr rfl fun k _ => ?_
  have hx : iblk4 V c 0 t (ix2 p k)
      = V c main_v61 (ix2 (⟨win4_2.index t (0 : Fin 2) * 5000 + p.val, hrow⟩ : Fin 50000) k) := by
    show V c main_v61 (((cfg4.win 0).blk t).view.emb (ix2 p k)) = _
    refine congrArg _ (funext fun a => Fin.ext ?_)
    match a with
    | ⟨0, _⟩ => show win4_0.index t (0 : Fin 2) * 5000 + 1 * p.val = win4_2.index t (0 : Fin 2) * 5000 + p.val; omega
    | ⟨1, _⟩ => show win4_0.index t (1 : Fin 2) * 128 + 1 * k.val = k.val; omega
  have hw : iblk4 V c 1 t (ix2 k q) = V c main_arg7 (ix2 k q) := by
    show V c main_arg7 (((cfg4.win 1).blk t).view.emb (ix2 k q)) = _
    refine congrArg _ (funext fun a => Fin.ext ?_)
    match a with
    | ⟨0, _⟩ => show win4_1.index t (0 : Fin 2) * 128 + 1 * k.val = k.val; omega
    | ⟨1, _⟩ => show win4_1.index t (1 : Fin 2) * 128 + 1 * q.val = q.val; omega
  rw [hx, hw]

/-- An index of the output is in point `t`'s block iff each coordinate is in the block's range on its axis. -/
theorem mem_block (t : Fin cfg4.N) (i : S50000x128.Idx) :
    i ∈ ((cfg4.win 2).blk t).view.set ↔ ∀ a : Fin 2, win4_2.index t a * S5000x128.size a ≤ (i a).val
      ∧ (i a).val < win4_2.index t a * S5000x128.size a + S5000x128.size a := by
  show i ∈ ((View.whole main_v62).slice (win4_2.rect t)).set ↔ _
  rw [View.set_slice_whole, Rect.mem_set_unit]
  exact Iff.rfl

/-- The blocks tile the output: row `r` is in the block of the point whose row block is `r / 5000`. -/
theorem cover (i : S50000x128.Idx) :
    ∃ t : Fin cfg4.N, (cfg4.win 2).flush t = true ∧ i ∈ ((cfg4.win 2).blk t).view.set := by
  have hi0 : (i 0).val < 50000 := (i 0).isLt
  have hi1 : (i 1).val < 128 := (i 1).isLt
  obtain ⟨t, ht⟩ := index_onto ⟨(i 0).val / 5000, by omega⟩
  have q0 : win4_2.index t (0 : Fin 2) = (i 0).val / 5000 := congrFun ht 0
  have q1 : win4_2.index t (1 : Fin 2) = 0 := congrFun ht 1
  refine ⟨t, flush4_2 t, ?_⟩
  rw [mem_block]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 128 ≤ (i 1).val ∧ (i 1).val < win4_2.index t (1 : Fin 2) * 128 + 128; omega

/-- The output array after the region: the product of the two input arrays as the region finds them. -/
theorem result (c : Dev nD) :
    (dat4 V c).arrAt 2 cfg4.N
      = product (V c main_v61) (V c main_arg7) :=
  (dat4 V c).arrAt_eq_of_cover 2 _ (fun t _ => flushed_eq V c t) cover

end Cert.KernelIdeal.Region4

end
-- ==== Proof.Region5.lean ====
/-
  Region 5 of the kernel program: a bias row added to every row.

  The grid has 10 points; point `t` loads rows `5000·t … 5000·t + 4999` of the matrix operand and the whole one-row bias, repeats
  the bias down the block's rows, adds and stores the block into the same rows of the output. Every operation is
  pointwise, so entry `(5000·t + p, q)` of the output is `X (5000·t + p, q) + B (0, q)`: the output array ends holding the same
  expression of the whole arrays, the bias repeated down all 50000 rows.
-/
import proofs.«145221_j74741020885173_1_alg».proof.Proof.Gen.KernelIdeal.Frame
import Idealize.ShloMosaic.Lib.KernelVsHost
import Idealize.ShloMosaic.Lib.Pipeline.Value
import Idealize.ShloMosaic.Lib.ValueIdx

set_option maxRecDepth 16384

noncomputable section

namespace Cert.KernelIdeal.Region5

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem zero_offset : (![0, 0] : Fin 2 → Nat) = fun _ => 0 := funext fun a => by fin_cases a <;> rfl

theorem row_bcast : S1x128.BroadcastsInDim S50000x128 (![0, 1] : Fin 2 → Fin S50000x128.rank) := by decide

/-- The whole-array function the region computes: the one-row bias repeated down the rows and added. -/
def spec {F : FTy → Type} [FloatOps F] (X : FVec F S50000x128 .f32) (B : FVec F S1x128 .f32) : FVec F S50000x128 .f32 :=
  addf X (broadcastInDim S50000x128 ![0, 1] row_bcast B)

/-- The same at the extended reals, as a function of the output's index. -/
abbrev G (X : S50000x128.Idx → Elt Ideal .f32) (B : S1x128.Idx → Elt Ideal .f32) : S50000x128.Idx → Elt Ideal .f32 :=
  spec (F := Ideal) X B

/-- That function at `(r, q)`. -/
theorem spec_apply (X : FVec Ideal S50000x128 .f32) (B : FVec Ideal S1x128 .f32) (r : Fin 50000) (q : Fin 128) :
    spec X B (ix2 r q) = X (ix2 r q) + B (ix2 (0 : Fin 1) q) := by
  unfold spec
  show X (ix2 r q) + broadcastInDim S50000x128 ![0, 1] row_bcast B (ix2 r q) = _
  rw [broadcastInDim_oneRow_apply row_bcast B r q]

/-- The index maps over the grid: the matrix operand's block moves with the output's along the rows, the bias block stays
    at the origin, and neither moves along the columns. -/
theorem index_maps : ∀ t : Fin cfg5.N, win5_0.index t (0 : Fin 2) = win5_2.index t (0 : Fin 2)
    ∧ win5_0.index t (1 : Fin 2) = 0 ∧ win5_1.index t (0 : Fin 2) = 0 ∧ win5_1.index t (1 : Fin 2) = 0
    ∧ win5_2.index t (1 : Fin 2) = 0 ∧ win5_2.index t (0 : Fin 2) < 10 :=
  (by decide +kernel : ∀ t : Fin grid5.N, _)

/-- Every row block of the output is some point's. -/
theorem index_onto : ∀ b : Fin 10, ∃ t : Fin cfg5.N, win5_2.index t = ![b.val, 0] :=
  (by decide +kernel : ∀ b : Fin 10, ∃ t : Fin grid5.N, win5_2.index t = ![b.val, 0])

/-- The body's stored value at `(p, q)`. -/
theorem payload_apply (x0 : Vec Ideal S5000x128 .f32) (x1 : Vec Ideal S1x128 .f32) (p : Fin 5000) (q : Fin 128) :
    k5_pay1 x0 x1 (ix2 p q) = x0 (ix2 p q) + x1 (ix2 (0 : Fin 1) q) := by
  have e0 : shapeCast S5000x128 x0 shapeCasts_S5000x128_S5000x128 = x0 := shapeCast_self _ _
  have e1 : shapeCast S1x128 x1 shapeCasts_S1x128_S1x128 = x1 := shapeCast_self _ _
  have hb : broadcastTo S5000x128 x1 broadcasts_S1x128_S5000x128 (ix2 p q) = x1 (ix2 (0 : Fin 1) q) :=
    broadcastTo_apply x1 broadcasts_S1x128_S5000x128 (ix2 p q) (ix2 (0 : Fin 1) q) (by
      intro a
      match a with
      | ⟨0, _⟩ => rfl
      | ⟨1, _⟩ => rfl)
  unfold k5_pay1
  simp only [e0, e1]
  show x0 (ix2 p q) + broadcastTo S5000x128 x1 broadcasts_S1x128_S5000x128 (ix2 p q) = _
  rw [hb]

/-- What point `t` writes back is block `t` of that function of the two arrays as the region finds them. -/
theorem flushed_eq (c : Dev nD) (t : Fin cfg5.N) :
    (dat5 V c).flushed 2 t = ((cfg5.win 2).blk t).view.read (Elt Ideal) (G (V c main_v75) (V c main_v76)) := by
  show (cfg5.win 2).cut (grid5.coords t) ((dat5 V c).after 2 t) = _
  rw [after5_2]
  unfold out5_2
  rw [View.canon_unit_zero zero_offset]
  simp only [View.ld_unit_zero (S := S5000x128) zero_offset, View.ld_unit_zero (S := S1x128) zero_offset]
  obtain ⟨e0, e1, e2, e3, e4, e5⟩ := index_maps t
  funext j
  obtain ⟨p, q, rfl⟩ : ∃ (p : Fin 5000) (q : Fin 128), j = ix2 p q := ⟨j 0, j 1, eq_ix2 j⟩
  have hp : p.val < 5000 := p.isLt
  have hrow : win5_2.index t (0 : Fin 2) * 5000 + p.val < 50000 := by omega
  have hout : ((cfg5.win 2).blk t).view.emb (ix2 p q)
      = ix2 (⟨win5_2.index t (0 : Fin 2) * 5000 + p.val, hrow⟩ : Fin 50000) q := by
    funext a; apply Fin.ext
    match a with
    | ⟨0, _⟩ => show win5_2.index t (0 : Fin 2) * 5000 + 1 * p.val = win5_2.index t (0 : Fin 2) * 5000 + p.val; omega
    | ⟨1, _⟩ => show win5_2.index t (1 : Fin 2) * 128 + 1 * q.val = q.val; omega
  show k5_pay1 (iblk5 V c 0 t) (iblk5 V c 1 t) (ix2 p q)
    = G (V c main_v75) (V c main_v76) (((cfg5.win 2).blk t).view.emb (ix2 p q))
  rw [hout]
  refine (payload_apply (iblk5 V c 0 t) (iblk5 V c 1 t) p q).trans ?_
  refine Eq.trans ?_ (spec_apply (V c main_v75) (V c main_v76) _ q).symm
  have hx : iblk5 V c 0 t (ix2 p q)
      = V c main_v75 (ix2 (⟨win5_2.index t (0 : Fin 2) * 5000 + p.val, hrow⟩ : Fin 50000) q) := by
    show V c main_v75 (((cfg5.win 0).blk t).view.emb (ix2 p q)) = _
    refine congrArg _ (funext fun a => Fin.ext ?_)
    match a with
    | ⟨0, _⟩ => show win5_0.index t (0 : Fin 2) * 5000 + 1 * p.val = win5_2.index t (0 : Fin 2) * 5000 + p.val; omega
    | ⟨1, _⟩ => show win5_0.index t (1 : Fin 2) * 128 + 1 * q.val = q.val; omega
  have hw : iblk5 V c 1 t (ix2 (0 : Fin 1) q) = V c main_v76 (ix2 (0 : Fin 1) q) := by
    show V c main_v76 (((cfg5.win 1).blk t).view.emb (ix2 (0 : Fin 1) q)) = _
    refine congrArg _ (funext fun a => Fin.ext ?_)
    match a with
    | ⟨0, _⟩ => show win5_1.index t (0 : Fin 2) * 1 + 1 * 0 = 0; omega
    | ⟨1, _⟩ => show win5_1.index t (1 : Fin 2) * 128 + 1 * q.val = q.val; omega
  rw [hx, hw]

/-- An index of the output is in point `t`'s block iff each coordinate is in the block's range on its axis. -/
theorem mem_block (t : Fin cfg5.N) (i : S50000x128.Idx) :
    i ∈ ((cfg5.win 2).blk t).view.set ↔ ∀ a : Fin 2, win5_2.index t a * S5000x128.size a ≤ (i a).val
      ∧ (i a).val < win5_2.index t a * S5000x128.size a + S5000x128.size a := by
  show i ∈ ((View.whole main_v77).slice (win5_2.rect t)).set ↔ _
  rw [View.set_slice_whole, Rect.mem_set_unit]
  exact Iff.rfl

/-- The blocks tile the output: row `r` is in the block of the point whose row block is `r / 5000`. -/
theorem cover (i : S50000x128.Idx) :
    ∃ t : Fin cfg5.N, (cfg5.win 2).flush t = true ∧ i ∈ ((cfg5.win 2).blk t).view.set := by
  have hi0 : (i 0).val < 50000 := (i 0).isLt
  have hi1 : (i 1).val < 128 := (i 1).isLt
  obtain ⟨t, ht⟩ := index_onto ⟨(i 0).val / 5000, by omega⟩
  have q0 : win5_2.index t (0 : Fin 2) = (i 0).val / 5000 := congrFun ht 0
  have q1 : win5_2.index t (1 : Fin 2) = 0 := congrFun ht 1
  refine ⟨t, flush5_2 t, ?_⟩
  rw [mem_block]
  intro a
  match a with
  | ⟨0, _⟩ => show win5_2.index t (0 : Fin 2) * 5000 ≤ (i 0).val ∧ (i 0).val < win5_2.index t (0 : Fin 2) * 5000 + 5000; omega
  | ⟨1, _⟩ => show win5_2.index t (1 : Fin 2) * 128 ≤ (i 1).val ∧ (i 1).val < win5_2.index t (1 : Fin 2) * 128 + 128; omega

/-- The output array after the region. -/
theorem result (c : Dev nD) : (dat5 V c).arrAt 2 cfg5.N = G (V c main_v75) (V c main_v76) :=
  (dat5 V c).arrAt_eq_of_cover 2 _ (fun t _ => flushed_eq V c t) cover

end Cert.KernelIdeal.Region5

end
-- ==== Proof.Region6.lean ====
/-
  Region 6 of the kernel program: a row-tiled matrix product.

  The grid has 1 point; point `t` loads rows `512·t … 512·t + 511` of the left operand (all 128 columns), the whole
  128 × 128 right operand, and stores the 512 × 128 product of the two into the same rows of the output. At the extended
  reals the body's two casts to the same shape and the change of float format in front of the product is the identity and the product into a zero accumulator is the
  plain contraction, so entry `(p, q)` of the stored block is `∑ k, X (512·t + p, k) · W (k, q)`: entry `(512·t + p, q)` of the
  whole product `X · W`. The blocks tile the output's rows, so the output array ends holding `X · W`.
-/
import proofs.«145221_j74741020885173_1_alg».proof.Proof.Gen.KernelIdeal.Frame
import proofs.«145221_j74741020885173_1_alg».proof.Proof.LibPlainProduct
import Idealize.ShloMosaic.Lib.Pipeline.Value
import Idealize.ShloMosaic.Lib.ValueIdx

set_option maxRecDepth 16384

noncomputable section

namespace Cert.KernelIdeal.Region6

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem zero_offset : (![0, 0] : Fin 2 → Nat) = fun _ => 0 := funext fun a => by fin_cases a <;> rfl

/-- The index maps over the grid: the left operand's block moves with the output's along the rows, the right operand's
    block stays at the origin, and neither moves along the columns. -/
theorem index_maps : ∀ t : Fin cfg6.N, win6_0.index t (0 : Fin 2) = win6_2.index t (0 : Fin 2)
    ∧ win6_0.index t (1 : Fin 2) = 0 ∧ win6_1.index t (0 : Fin 2) = 0 ∧ win6_1.index t (1 : Fin 2) = 0
    ∧ win6_2.index t (1 : Fin 2) = 0 ∧ win6_2.index t (0 : Fin 2) < 1 :=
  (by decide +kernel : ∀ t : Fin grid6.N, _)

/-- Every row block of the output is some point's. -/
theorem index_onto : ∀ b : Fin 1, ∃ t : Fin cfg6.N, win6_2.index t = ![b.val, 0] :=
  (by decide +kernel : ∀ b : Fin 1, ∃ t : Fin grid6.N, win6_2.index t = ![b.val, 0])

/-- The body's stored value at `(p, q)`: the contraction of row `p` of the left block with column `q` of the right one. -/
theorem payload_apply (x0 : Vec Ideal S512x128 .f32) (x1 : Vec Ideal S128x128 .f32) (p : Fin 512) (q : Fin 128) :
    k6_pay1 x0 x1 (ix2 p q) = ∑ k : Fin 128, x0 (ix2 p k) * x1 (ix2 k q) := by
  have e0 : shapeCast S512x128 x0 shapeCasts_S512x128_S512x128 = x0 := shapeCast_self _ _
  have e1 : shapeCast S128x128 x1 shapeCasts_S128x128_S128x128 = x1 := shapeCast_self _ _
  unfold k6_pay1
  simp only [e0, e1]
  exact Cert.PlainProduct.matmul_plain_apply dot_S512x128_S128x128_S512x128_1_0_0_1_n_n rfl none _ _ p q

/-- The whole product of the two arrays, as a function of the output's index. -/
abbrev product (X : FVec Ideal S512x128 .f32) (W : FVec Ideal S128x128 .f32) : S512x128.Idx → Elt Ideal .f32 :=
  Host.dotGeneral (F := Ideal) (DotDims.plain 512 128 128) none X W

/-- What point `t` writes back is block `t` of the whole product of the two arrays as the region finds them. -/
theorem flushed_eq (c : Dev nD) (t : Fin cfg6.N) :
    (dat6 V c).flushed 2 t = ((cfg6.win 2).blk t).view.read (Elt Ideal)
      (product (V c main_v89) (V c main_v90)) := by
  show (cfg6.win 2).cut (grid6.coords t) ((dat6 V c).after 2 t) = _
  rw [after6_2]
  unfold out6_2
  rw [View.canon_unit_zero zero_offset]
  simp only [View.ld_unit_zero (S := S512x128) zero_offset, View.ld_unit_zero (S := S128x128) zero_offset]
  obtain ⟨e0, e1, e2, e3, e4, e5⟩ := index_maps t
  funext j
  obtain ⟨p, q, rfl⟩ : ∃ (p : Fin 512) (q : Fin 128), j = ix2 p q := ⟨j 0, j 1, eq_ix2 j⟩
  have hp : p.val < 512 := p.isLt
  have hrow : win6_2.index t (0 : Fin 2) * 512 + p.val < 512 := by omega
  have hout : ((cfg6.win 2).blk t).view.emb (ix2 p q)
      = ix2 (⟨win6_2.index t (0 : Fin 2) * 512 + p.val, hrow⟩ : Fin 512) q := by
    funext a; apply Fin.ext
    match a with
    | ⟨0, _⟩ => show win6_2.index t (0 : Fin 2) * 512 + 1 * p.val = win6_2.index t (0 : Fin 2) * 512 + p.val; omega
    | ⟨1, _⟩ => show win6_2.index t (1 : Fin 2) * 128 + 1 * q.val = q.val; omega
  show k6_pay1 (iblk6 V c 0 t) (iblk6 V c 1 t) (ix2 p q)
    = product (V c main_v89) (V c main_v90) (((cfg6.win 2).blk t).view.emb (ix2 p q))
  rw [hout]
  refine (payload_apply (iblk6 V c 0 t) (iblk6 V c 1 t) p q).trans ?_
  refine Eq.trans ?_ (Cert.PlainProduct.dotGeneral_plain_apply' (DotDims.plain 512 128 128) rfl none (V c main_v89) (V c main_v90) _ q).symm
  refine Finset.sum_congr rfl fun k _ => ?_
  have hx : iblk6 V c 0 t (ix2 p k)
      = V c main_v89 (ix2 (⟨win6_2.index t (0 : Fin 2) * 512 + p.val, hrow⟩ : Fin 512) k) := by
    show V c main_v89 (((cfg6.win 0).blk t).view.emb (ix2 p k)) = _
    refine congrArg _ (funext fun a => Fin.ext ?_)
    match a with
    | ⟨0, _⟩ => show win6_0.index t (0 : Fin 2) * 512 + 1 * p.val = win6_2.index t (0 : Fin 2) * 512 + p.val; omega
    | ⟨1, _⟩ => show win6_0.index t (1 : Fin 2) * 128 + 1 * k.val = k.val; omega
  have hw : iblk6 V c 1 t (ix2 k q) = V c main_v90 (ix2 k q) := by
    show V c main_v90 (((cfg6.win 1).blk t).view.emb (ix2 k q)) = _
    refine congrArg _ (funext fun a => Fin.ext ?_)
    match a with
    | ⟨0, _⟩ => show win6_1.index t (0 : Fin 2) * 128 + 1 * k.val = k.val; omega
    | ⟨1, _⟩ => show win6_1.index t (1 : Fin 2) * 128 + 1 * q.val = q.val; omega
  rw [hx, hw]

/-- An index of the output is in point `t`'s block iff each coordinate is in the block's range on its axis. -/
theorem mem_block (t : Fin cfg6.N) (i : S512x128.Idx) :
    i ∈ ((cfg6.win 2).blk t).view.set ↔ ∀ a : Fin 2, win6_2.index t a * S512x128.size a ≤ (i a).val
      ∧ (i a).val < win6_2.index t a * S512x128.size a + S512x128.size a := by
  show i ∈ ((View.whole main_v92).slice (win6_2.rect t)).set ↔ _
  rw [View.set_slice_whole, Rect.mem_set_unit]
  exact Iff.rfl

/-- The blocks tile the output: row `r` is in the block of the point whose row block is `r / 512`. -/
theorem cover (i : S512x128.Idx) :
    ∃ t : Fin cfg6.N, (cfg6.win 2).flush t = true ∧ i ∈ ((cfg6.win 2).blk t).view.set := by
  have hi0 : (i 0).val < 512 := (i 0).isLt
  have hi1 : (i 1).val < 128 := (i 1).isLt
  obtain ⟨t, ht⟩ := index_onto ⟨(i 0).val / 512, by omega⟩
  have q0 : win6_2.index t (0 : Fin 2) = (i 0).val / 512 := congrFun ht 0
  have q1 : win6_2.index t (1 : Fin 2) = 0 := congrFun ht 1
  refine ⟨t, flush6_2 t, ?_⟩
  rw [mem_block]
  intro a
  match a with
  | ⟨0, _⟩ => show win6_2.index t (0 : Fin 2) * 512 ≤ (i 0).val ∧ (i 0).val < win6_2.index t (0 : Fin 2) * 512 + 512; omega
  | ⟨1, _⟩ => show win6_2.index t (1 : Fin 2) * 128 ≤ (i 1).val ∧ (i 1).val < win6_2.index t (1 : Fin 2) * 128 + 128; omega

/-- The output array after the region: the product of the two input arrays as the region finds them. -/
theorem result (c : Dev nD) :
    (dat6 V c).arrAt 2 cfg6.N
      = product (V c main_v89) (V c main_v90) :=
  (dat6 V c).arrAt_eq_of_cover 2 _ (fun t _ => flushed_eq V c t) cover

end Cert.KernelIdeal.Region6

end
-- ==== Proof.Region7.lean ====
/-
  Region 7 of the kernel program: a bias row added to every row.

  The grid has 1 point; point `t` loads rows `512·t … 512·t + 511` of the matrix operand and the whole one-row bias, repeats
  the bias down the block's rows, adds and stores the block into the same rows of the output. Every operation is
  pointwise, so entry `(512·t + p, q)` of the output is `X (512·t + p, q) + B (0, q)`: the output array ends holding the same
  expression of the whole arrays, the bias repeated down all 512 rows.
-/
import proofs.«145221_j74741020885173_1_alg».proof.Proof.Gen.KernelIdeal.Frame
import Idealize.ShloMosaic.Lib.KernelVsHost
import Idealize.ShloMosaic.Lib.Pipeline.Value
import Idealize.ShloMosaic.Lib.ValueIdx

set_option maxRecDepth 16384

noncomputable section

namespace Cert.KernelIdeal.Region7

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem zero_offset : (![0, 0] : Fin 2 → Nat) = fun _ => 0 := funext fun a => by fin_cases a <;> rfl

theorem row_bcast : S1x128.BroadcastsInDim S512x128 (![0, 1] : Fin 2 → Fin S512x128.rank) := by decide

/-- The whole-array function the region computes: the one-row bias repeated down the rows and added. -/
def spec {F : FTy → Type} [FloatOps F] (X : FVec F S512x128 .f32) (B : FVec F S1x128 .f32) : FVec F S512x128 .f32 :=
  addf X (broadcastInDim S512x128 ![0, 1] row_bcast B)

/-- The same at the extended reals, as a function of the output's index. -/
abbrev G (X : S512x128.Idx → Elt Ideal .f32) (B : S1x128.Idx → Elt Ideal .f32) : S512x128.Idx → Elt Ideal .f32 :=
  spec (F := Ideal) X B

/-- That function at `(r, q)`. -/
theorem spec_apply (X : FVec Ideal S512x128 .f32) (B : FVec Ideal S1x128 .f32) (r : Fin 512) (q : Fin 128) :
    spec X B (ix2 r q) = X (ix2 r q) + B (ix2 (0 : Fin 1) q) := by
  unfold spec
  show X (ix2 r q) + broadcastInDim S512x128 ![0, 1] row_bcast B (ix2 r q) = _
  rw [broadcastInDim_oneRow_apply row_bcast B r q]

/-- The index maps over the grid: the matrix operand's block moves with the output's along the rows, the bias block stays
    at the origin, and neither moves along the columns. -/
theorem index_maps : ∀ t : Fin cfg7.N, win7_0.index t (0 : Fin 2) = win7_2.index t (0 : Fin 2)
    ∧ win7_0.index t (1 : Fin 2) = 0 ∧ win7_1.index t (0 : Fin 2) = 0 ∧ win7_1.index t (1 : Fin 2) = 0
    ∧ win7_2.index t (1 : Fin 2) = 0 ∧ win7_2.index t (0 : Fin 2) < 1 :=
  (by decide +kernel : ∀ t : Fin grid7.N, _)

/-- Every row block of the output is some point's. -/
theorem index_onto : ∀ b : Fin 1, ∃ t : Fin cfg7.N, win7_2.index t = ![b.val, 0] :=
  (by decide +kernel : ∀ b : Fin 1, ∃ t : Fin grid7.N, win7_2.index t = ![b.val, 0])

/-- The body's stored value at `(p, q)`. -/
theorem payload_apply (x0 : Vec Ideal S512x128 .f32) (x1 : Vec Ideal S1x128 .f32) (p : Fin 512) (q : Fin 128) :
    k7_pay1 x0 x1 (ix2 p q) = x0 (ix2 p q) + x1 (ix2 (0 : Fin 1) q) := by
  have e0 : shapeCast S512x128 x0 shapeCasts_S512x128_S512x128 = x0 := shapeCast_self _ _
  have e1 : shapeCast S1x128 x1 shapeCasts_S1x128_S1x128 = x1 := shapeCast_self _ _
  have hb : broadcastTo S512x128 x1 broadcasts_S1x128_S512x128 (ix2 p q) = x1 (ix2 (0 : Fin 1) q) :=
    broadcastTo_apply x1 broadcasts_S1x128_S512x128 (ix2 p q) (ix2 (0 : Fin 1) q) (by
      intro a
      match a with
      | ⟨0, _⟩ => rfl
      | ⟨1, _⟩ => rfl)
  unfold k7_pay1
  simp only [e0, e1]
  show x0 (ix2 p q) + broadcastTo S512x128 x1 broadcasts_S1x128_S512x128 (ix2 p q) = _
  rw [hb]

/-- What point `t` writes back is block `t` of that function of the two arrays as the region finds them. -/
theorem flushed_eq (c : Dev nD) (t : Fin cfg7.N) :
    (dat7 V c).flushed 2 t = ((cfg7.win 2).blk t).view.read (Elt Ideal) (G (V c main_v92) (V c main_v93)) := by
  show (cfg7.win 2).cut (grid7.coords t) ((dat7 V c).after 2 t) = _
  rw [after7_2]
  unfold out7_2
  rw [View.canon_unit_zero zero_offset]
  simp only [View.ld_unit_zero (S := S512x128) zero_offset, View.ld_unit_zero (S := S1x128) zero_offset]
  obtain ⟨e0, e1, e2, e3, e4, e5⟩ := index_maps t
  funext j
  obtain ⟨p, q, rfl⟩ : ∃ (p : Fin 512) (q : Fin 128), j = ix2 p q := ⟨j 0, j 1, eq_ix2 j⟩
  have hp : p.val < 512 := p.isLt
  have hrow : win7_2.index t (0 : Fin 2) * 512 + p.val < 512 := by omega
  have hout : ((cfg7.win 2).blk t).view.emb (ix2 p q)
      = ix2 (⟨win7_2.index t (0 : Fin 2) * 512 + p.val, hrow⟩ : Fin 512) q := by
    funext a; apply Fin.ext
    match a with
    | ⟨0, _⟩ => show win7_2.index t (0 : Fin 2) * 512 + 1 * p.val = win7_2.index t (0 : Fin 2) * 512 + p.val; omega
    | ⟨1, _⟩ => show win7_2.index t (1 : Fin 2) * 128 + 1 * q.val = q.val; omega
  show k7_pay1 (iblk7 V c 0 t) (iblk7 V c 1 t) (ix2 p q)
    = G (V c main_v92) (V c main_v93) (((cfg7.win 2).blk t).view.emb (ix2 p q))
  rw [hout]
  refine (payload_apply (iblk7 V c 0 t) (iblk7 V c 1 t) p q).trans ?_
  refine Eq.trans ?_ (spec_apply (V c main_v92) (V c main_v93) _ q).symm
  have hx : iblk7 V c 0 t (ix2 p q)
      = V c main_v92 (ix2 (⟨win7_2.index t (0 : Fin 2) * 512 + p.val, hrow⟩ : Fin 512) q) := by
    show V c main_v92 (((cfg7.win 0).blk t).view.emb (ix2 p q)) = _
    refine congrArg _ (funext fun a => Fin.ext ?_)
    match a with
    | ⟨0, _⟩ => show win7_0.index t (0 : Fin 2) * 512 + 1 * p.val = win7_2.index t (0 : Fin 2) * 512 + p.val; omega
    | ⟨1, _⟩ => show win7_0.index t (1 : Fin 2) * 128 + 1 * q.val = q.val; omega
  have hw : iblk7 V c 1 t (ix2 (0 : Fin 1) q) = V c main_v93 (ix2 (0 : Fin 1) q) := by
    show V c main_v93 (((cfg7.win 1).blk t).view.emb (ix2 (0 : Fin 1) q)) = _
    refine congrArg _ (funext fun a => Fin.ext ?_)
    match a with
    | ⟨0, _⟩ => show win7_1.index t (0 : Fin 2) * 1 + 1 * 0 = 0; omega
    | ⟨1, _⟩ => show win7_1.index t (1 : Fin 2) * 128 + 1 * q.val = q.val; omega
  rw [hx, hw]

/-- An index of the output is in point `t`'s block iff each coordinate is in the block's range on its axis. -/
theorem mem_block (t : Fin cfg7.N) (i : S512x128.Idx) :
    i ∈ ((cfg7.win 2).blk t).view.set ↔ ∀ a : Fin 2, win7_2.index t a * S512x128.size a ≤ (i a).val
      ∧ (i a).val < win7_2.index t a * S512x128.size a + S512x128.size a := by
  show i ∈ ((View.whole main_v94).slice (win7_2.rect t)).set ↔ _
  rw [View.set_slice_whole, Rect.mem_set_unit]
  exact Iff.rfl

/-- The blocks tile the output: row `r` is in the block of the point whose row block is `r / 512`. -/
theorem cover (i : S512x128.Idx) :
    ∃ t : Fin cfg7.N, (cfg7.win 2).flush t = true ∧ i ∈ ((cfg7.win 2).blk t).view.set := by
  have hi0 : (i 0).val < 512 := (i 0).isLt
  have hi1 : (i 1).val < 128 := (i 1).isLt
  obtain ⟨t, ht⟩ := index_onto ⟨(i 0).val / 512, by omega⟩
  have q0 : win7_2.index t (0 : Fin 2) = (i 0).val / 512 := congrFun ht 0
  have q1 : win7_2.index t (1 : Fin 2) = 0 := congrFun ht 1
  refine ⟨t, flush7_2 t, ?_⟩
  rw [mem_block]
  intro a
  match a with
  | ⟨0, _⟩ => show win7_2.index t (0 : Fin 2) * 512 ≤ (i 0).val ∧ (i 0).val < win7_2.index t (0 : Fin 2) * 512 + 512; omega
  | ⟨1, _⟩ => show win7_2.index t (1 : Fin 2) * 128 ≤ (i 1).val ∧ (i 1).val < win7_2.index t (1 : Fin 2) * 128 + 128; omega

/-- The output array after the region. -/
theorem result (c : Dev nD) : (dat7 V c).arrAt 2 cfg7.N = G (V c main_v92) (V c main_v93) :=
  (dat7 V c).arrAt_eq_of_cover 2 _ (fun t _ => flushed_eq V c t) cover

end Cert.KernelIdeal.Region7

end
-- ==== Proof.LibOneRow.lean ====
/-
  A vector as a one-row matrix, two ways.

  A length-`n` vector becomes a `[1, n]` matrix either by a cast (a reshape: the row-major position `0·n + q = q` is kept) or
  by a broadcast along axis 1 (entry `(0, q)` reads entry `q`). Both matrices hold entry `q` of the vector at `(0, q)`, so
  they are equal, over any element type.
-/
import Idealize.ShloMosaic.Lib.Pipeline.Value
import Idealize.ShloMosaic.Lib.ValueIdx

noncomputable section

namespace Cert.OneRow

open Idealize.ShloMosaic Idealize.ShloMosaic.ValueIdx

/-- A vector cast to one row is the vector broadcast along axis 1 of one row. -/
theorem cast_eq_broadcast {α : Type} {n : Nat} (x : (⟨1, ![n]⟩ : Shape).Idx → α)
    (h1 : (⟨1, ![n]⟩ : Shape).ShapeCasts ⟨2, ![1, n]⟩) (hd : (⟨1, ![n]⟩ : Shape).BroadcastsInDim ⟨2, ![1, n]⟩ ![1]) :
    shapeCast ⟨2, ![1, n]⟩ x h1 = broadcastInDim ⟨2, ![1, n]⟩ ![1] hd x := by
  funext i
  obtain ⟨r, q, rfl⟩ : ∃ (r : Fin 1) (q : Fin n), i = ix2 r q := ⟨i 0, i 1, eq_ix2 i⟩
  have hr : r = 0 := Subsingleton.elim _ _
  subst hr
  have e2 := shapeCast_apply x h1 (ix2 (0 : Fin 1) q) (ix1 q) (by
    rw [Shape.rowMajor_val_two, Shape.rowMajor_val_one]; show q.val = 0 * n + q.val; omega)
  have e3 := broadcastInDim_apply ![1] hd x (ix2 (0 : Fin 1) q) (ix1 q) (by
    intro a
    match a with
    | ⟨0, _⟩ =>
      show q.val = if n = 1 then 0 else q.val
      split
      · have := q.isLt; omega
      · rfl)
  exact e2.trans e3.symm

end Cert.OneRow

end
-- ==== Proof.Bridge.lean ====
/-
  The kernel regions' whole-array functions against the reference's stages, at the extended reals.

  A bias vector of `n` entries as one row `[1, n]`: the kernel's program reshapes it, the reference broadcasts it along axis 1;
  both rows hold entry `q` of the vector at `(0, q)`. With that, a bias region's function is the reference's
  "add the bias to every row" (then the positive part, where the region takes the maximum with zero).

  The classifier: the kernel pads the 128 × 16 weight matrix and the 16 bias entries with zeros to 128 columns, multiplies,
  adds the bias row and keeps columns 0 … 15. Column `j < 16` of the padded product is
  `∑ k, P (g, k) · W' (k, j)` with `W' (k, j) = W (k, j)` there, and the padded bias at `j` is the bias at `j`: the kept columns
  are the reference's product with the unpadded matrix plus the bias. No padded entry enters a kept column's sum.
-/
import proofs.«145221_j74741020885173_1_alg».proof.Proof.Region1
import proofs.«145221_j74741020885173_1_alg».proof.Proof.Region3
import proofs.«145221_j74741020885173_1_alg».proof.Proof.Region5
import proofs.«145221_j74741020885173_1_alg».proof.Proof.Region6
import proofs.«145221_j74741020885173_1_alg».proof.Proof.Region7
import proofs.«145221_j74741020885173_1_alg».proof.Proof.RefStages
import proofs.«145221_j74741020885173_1_alg».proof.Proof.LibPlainProduct
import proofs.«145221_j74741020885173_1_alg».proof.Proof.LibOneRow
import Idealize.ShloMosaic.Lib.KernelVsHost

set_option maxRecDepth 16384

noncomputable section

namespace Cert.Bridge

open Idealize.ShloMosaic Idealize.ShloMosaic.ValueIdx
open Cert.ReferenceIdeal.Stages

section Bias
open Cert.KernelIdeal Cert.KernelIdeal.Gen

/-- The bias row as the kernel's program builds it is the reference's. -/
theorem biasRow_eq (b : FVec Ideal S128 .f32) :
    (shapeCast S1x128 b shapeCasts_S128_S1x128 : FVec Ideal S1x128 .f32)
      = broadcastInDim Cert.ReferenceIdeal.S1x128 ![1] Cert.ReferenceIdeal.Gen.bcast_S128_S1x128_1 b :=
  Cert.OneRow.cast_eq_broadcast (n := 128) b shapeCasts_S128_S1x128 Cert.ReferenceIdeal.Gen.bcast_S128_S1x128_1

/-- Region 1's function of a matrix and the reshaped bias: add the bias to every row, then the positive part. -/
theorem region1_eq (A : FVec Ideal S50000x128 .f32) (b : FVec Ideal S128 .f32) :
    Region1.G A (shapeCast S1x128 b shapeCasts_S128_S1x128) = positivePart (addBias A b) :=
  (congrArg (Region1.G A) (biasRow_eq b)).trans rfl

/-- Region 3's function, the same. -/
theorem region3_eq (A : FVec Ideal S50000x128 .f32) (b : FVec Ideal S128 .f32) :
    Region3.G A (shapeCast S1x128 b shapeCasts_S128_S1x128) = positivePart (addBias A b) :=
  (congrArg (Region3.G A) (biasRow_eq b)).trans rfl

/-- Region 5's function: add the bias to every row. -/
theorem region5_eq (A : FVec Ideal S50000x128 .f32) (b : FVec Ideal S128 .f32) :
    Region5.G A (shapeCast S1x128 b shapeCasts_S128_S1x128) = addBias A b :=
  (congrArg (Region5.G A) (biasRow_eq b)).trans rfl

/-- The padded classifier, columns 0 … 15 kept, is the reference's classifier. -/
theorem classifier_eq (P : FVec Ideal S512x128 .f32) (LW : FVec Ideal S128x16 .f32) (LB : FVec Ideal S16 .f32)
    (v : FVec Ideal S_ .f32) :
    extractStridedSlice S512x16 ![0, 0]
        (Region7.G (Region6.product P (pad S128x128 ![0, 0] ![0, 112] ![0, 0] LW v pads_S128x16_S128x128_000_01120 h_S_))
          (shapeCast S1x128 (pad S128 ![0] ![112] ![0] LB v pads_S16_S128_01120 h_S_) shapeCasts_S128_S1x128))
        slices_S512x128_S512x16_0_0
      = classify P LW LB := by
  funext i
  obtain ⟨g, j, rfl⟩ : ∃ (g : Fin 512) (j : Fin 16), i = ix2 g j := ⟨i 0, i 1, eq_ix2 i⟩
  have hj : j.val < 16 := j.isLt
  have hj' : j.val < 128 := by omega
  -- the kept column, as a column of the padded arrays
  have hslice := extractStridedSlice_apply (![0, 0] : Fin 2 → Nat)
    (Region7.G (Region6.product P (pad S128x128 ![0, 0] ![0, 112] ![0, 0] LW v pads_S128x16_S128x128_000_01120 h_S_))
      (shapeCast S1x128 (pad S128 ![0] ![112] ![0] LB v pads_S16_S128_01120 h_S_) shapeCasts_S128_S1x128))
    slices_S512x128_S512x16_0_0 (ix2 g j) (ix2 g (⟨j.val, hj'⟩ : Fin 128)) (by
      intro a
      match a with
      | ⟨0, _⟩ => show g.val = 0 + g.val; omega
      | ⟨1, _⟩ => show j.val = 0 + j.val; omega)
  refine hslice.trans ?_
  refine (Region7.spec_apply _ _ g (⟨j.val, hj'⟩ : Fin 128)).trans ?_
  -- the padded bias at the kept column
  have hb : (shapeCast S1x128 (pad S128 ![0] ![112] ![0] LB v pads_S16_S128_01120 h_S_) shapeCasts_S128_S1x128 : FVec Ideal S1x128 .f32)
      (ix2 (0 : Fin 1) (⟨j.val, hj'⟩ : Fin 128)) = LB (ix1 j) := by
    refine (shapeCast_apply (pad S128 ![0] ![112] ![0] LB v pads_S16_S128_01120 h_S_) shapeCasts_S128_S1x128
      (ix2 (0 : Fin 1) (⟨j.val, hj'⟩ : Fin 128)) (ix1 (⟨j.val, hj'⟩ : Fin 128)) (by
        rw [Shape.rowMajor_val_two, Shape.rowMajor_val_one]; show j.val = 0 * 128 + j.val; omega)).trans ?_
    exact pad_apply_of_inside ![0] ![112] ![0] LB v pads_S16_S128_01120 h_S_ (ix1 (⟨j.val, hj'⟩ : Fin 128)) (ix1 j) (by
      intro a
      match a with
      | ⟨0, _⟩ => show j.val = 0 + j.val * (0 + 1); omega)
  -- the padded product at the kept column
  have hq : Region6.product P (pad S128x128 ![0, 0] ![0, 112] ![0, 0] LW v pads_S128x16_S128x128_000_01120 h_S_)
      (ix2 g (⟨j.val, hj'⟩ : Fin 128)) = ∑ k : Fin 128, P (ix2 g k) * LW (ix2 k j) := by
    refine (Cert.PlainProduct.dotGeneral_plain_apply' (DotDims.plain 512 128 128) rfl none P _ g (⟨j.val, hj'⟩ : Fin 128)).trans ?_
    refine Finset.sum_congr rfl fun k _ => ?_
    congr 1
    exact pad_apply_of_inside ![0, 0] ![0, 112] ![0, 0] LW v pads_S128x16_S128x128_000_01120 h_S_
      (ix2 k (⟨j.val, hj'⟩ : Fin 128)) (ix2 k j) (by
        intro a
        match a with
        | ⟨0, _⟩ => show k.val = 0 + k.val * (0 + 1); omega
        | ⟨1, _⟩ => show j.val = 0 + j.val * (0 + 1); omega)
  rw [hb, hq]
  -- the reference's classifier at the same entry
  unfold classify
  show _ = Host.dotGeneral Cert.ReferenceIdeal.dot_S512x128_S128x16_S512x16_1_0_0_1_n_n none P LW (ix2 g j)
      + broadcastInDim Cert.ReferenceIdeal.S512x16 ![0, 1] Cert.ReferenceIdeal.Gen.bcast_S1x16_S512x16_0_1
          (broadcastInDim Cert.ReferenceIdeal.S1x16 ![1] Cert.ReferenceIdeal.Gen.bcast_S16_S1x16_1 LB) (ix2 g j)
  rw [Cert.PlainProduct.dotGeneral_plain_apply' Cert.ReferenceIdeal.dot_S512x128_S128x16_S512x16_1_0_0_1_n_n rfl none P LW g j,
    broadcastInDim_oneRow_apply Cert.ReferenceIdeal.Gen.bcast_S1x16_S512x16_0_1 _ g j]
  congr 1
  exact (broadcastInDim_apply ![1] Cert.ReferenceIdeal.Gen.bcast_S16_S1x16_1 LB (ix2 (0 : Fin 1) j) (ix1 j) (by
    intro a
    match a with
    | ⟨0, _⟩ => rfl)).symm

end Bias

end Cert.Bridge

end
-- ==== Proof.ChainLayers.lean ====
/-
  The kernel program's buffers through its eight regions, at the extended reals, and the program's result.

  Each region's output array is one whole-array function of its input arrays as the region finds them (a product, or a
  bias row added to every row, with or without the positive part). Between the regions the host operations are the
  reference's own. Reading the buffers boundary by boundary: region 0's product is propagated over the graph, region 1
  adds the first bias and takes the positive part — the first hidden layer; regions 2 and 3 give the second hidden
  layer; regions 4 and 5 the third layer, with no activation; the host pools it per graph; region 6 multiplies the pooled
  rows by the zero-padded classifier weights, region 7 adds the zero-padded bias, and the host keeps columns 0 … 15:
  the reference's classifier. So the result buffer holds the reference's network of the arguments.
-/
import proofs.«145221_j74741020885173_1_alg».proof.Proof.ChainHost
import proofs.«145221_j74741020885173_1_alg».proof.Proof.Region0
import proofs.«145221_j74741020885173_1_alg».proof.Proof.Region1
import proofs.«145221_j74741020885173_1_alg».proof.Proof.Region2
import proofs.«145221_j74741020885173_1_alg».proof.Proof.Region3
import proofs.«145221_j74741020885173_1_alg».proof.Proof.Region4
import proofs.«145221_j74741020885173_1_alg».proof.Proof.Region5
import proofs.«145221_j74741020885173_1_alg».proof.Proof.Region6
import proofs.«145221_j74741020885173_1_alg».proof.Proof.Region7
import proofs.«145221_j74741020885173_1_alg».proof.Proof.Bridge
import Idealize.ShloMosaic.PureOps.Ideal

set_option maxRecDepth 16384

noncomputable section

namespace Cert.KernelIdeal.Chain

open Cert.KernelIdeal Cert.KernelIdeal.Gen Idealize.ShloMosaic Idealize.ShloMosaic.TcCoe Idealize.ShloMosaic.StableHlo
open Idealize.SL Idealize.SL.Sem
open Cert.ReferenceIdeal.Stages Cert.KernelIdeal.Host

variable (m : (ℓ : Loc nD τ sig) → Buf (Elt Ideal) ℓ) (ρ : Dev nD → PrngReg) (c : Dev nD)

/-- The first hidden layer: the positive part of layer 1 of the node features. -/
def hidden1 : FVec Ideal Cert.ReferenceIdeal.S50000x128 .f32 :=
  positivePart (layer (arg m c main_arg1) (arg m c main_arg0) (arg m c main_arg3) (arg m c main_arg4))
/-- The second hidden layer. -/
def hidden2 : FVec Ideal Cert.ReferenceIdeal.S50000x128 .f32 :=
  positivePart (layer (arg m c main_arg1) (hidden1 m c) (arg m c main_arg5) (arg m c main_arg6))
/-- The third layer's output, one row per node. -/
def nodeRows : FVec Ideal Cert.ReferenceIdeal.S50000x128 .f32 :=
  layer (arg m c main_arg1) (hidden2 m c) (arg m c main_arg7) (arg m c main_arg8)

/-! ## Layer 1 -/

theorem transformed1 : W4 m ρ c (Proc.devRef .tc main_v30) = transform (F := Ideal) (arg m c main_arg0) (arg m c main_arg3) := by
  refine (W4_arr m ρ c 2).trans ?_
  refine (Region0.result (V3 m ρ) c).trans ?_
  show Region0.product (W3 m ρ c (Proc.devRef .tc main_arg0)) (W3 m ρ c (Proc.devRef .tc main_arg3)) = _
  rw [arg0_at3 m ρ c, arg3_at3 m ρ c]
  rfl

theorem activated1 : W6 m ρ c (Proc.devRef .tc main_v45) = hidden1 m c := by
  refine (W6_arr m ρ c 2).trans ?_
  refine (Region1.result (V5 m ρ) c).trans ?_
  show Region1.G (W5 m ρ c (Proc.devRef .tc main_v43)) (W5 m ρ c (Proc.devRef .tc main_v44)) = _
  rw [propagated1 m ρ c, biasRow1 m ρ c, transformed1 m ρ c]
  exact Cert.Bridge.region1_eq _ _

/-! ## Layer 2 -/

theorem transformed2 : W7 m ρ c (Proc.devRef .tc main_v46) = transform (F := Ideal) (hidden1 m c) (arg m c main_arg5) := by
  refine (W7_arr m ρ c 2).trans ?_
  refine (Region2.result (V6 m ρ) c).trans ?_
  show Region2.product (W6 m ρ c (Proc.devRef .tc main_v45)) (W6 m ρ c (Proc.devRef .tc main_arg5)) = _
  rw [activated1 m ρ c, arg5_at6 m ρ c]
  rfl

theorem activated2 : W9 m ρ c (Proc.devRef .tc main_v61) = hidden2 m c := by
  refine (W9_arr m ρ c 2).trans ?_
  refine (Region3.result (V8 m ρ) c).trans ?_
  show Region3.G (W8 m ρ c (Proc.devRef .tc main_v59)) (W8 m ρ c (Proc.devRef .tc main_v60)) = _
  rw [propagated2 m ρ c, biasRow2 m ρ c, transformed2 m ρ c]
  exact Cert.Bridge.region3_eq _ _

/-! ## Layer 3 (no activation) -/

theorem transformed3 : W10 m ρ c (Proc.devRef .tc main_v62) = transform (F := Ideal) (hidden2 m c) (arg m c main_arg7) := by
  refine (W10_arr m ρ c 2).trans ?_
  refine (Region4.result (V9 m ρ) c).trans ?_
  show Region4.product (W9 m ρ c (Proc.devRef .tc main_v61)) (W9 m ρ c (Proc.devRef .tc main_arg7)) = _
  rw [activated2 m ρ c, arg7_at9 m ρ c]
  rfl

theorem layer3 : W12 m ρ c (Proc.devRef .tc main_v77) = nodeRows m c := by
  refine (W12_arr m ρ c 2).trans ?_
  refine (Region5.result (V11 m ρ) c).trans ?_
  show Region5.G (W11 m ρ c (Proc.devRef .tc main_v75)) (W11 m ρ c (Proc.devRef .tc main_v76)) = _
  rw [propagated3 m ρ c, biasRow3 m ρ c, transformed3 m ρ c]
  exact Cert.Bridge.region5_eq _ _

/-! ## The pool and the classifier -/

theorem product_at17 : W17 m ρ c (Proc.devRef .tc main_v92)
    = Region6.product (pool (arg m c main_arg2) (nodeRows m c))
        (pad S128x128 ![0, 0] ![0, 112] ![0, 0] (arg m c main_arg9) (padValue (F := Ideal)) pads_S128x16_S128x128_000_01120 h_S_) := by
  refine (W17_arr m ρ c 2).trans ?_
  refine (Region6.result (V16 m ρ) c).trans ?_
  show Region6.product (W16 m ρ c (Proc.devRef .tc main_v89)) (W16 m ρ c (Proc.devRef .tc main_v90)) = _
  rw [pooled_at16 m ρ c, paddedWeights_at16 m ρ c, layer3 m ρ c]

theorem last_at19 : W19 m ρ c (Proc.devRef .tc main_v94)
    = Region7.G (Region6.product (pool (arg m c main_arg2) (nodeRows m c))
          (pad S128x128 ![0, 0] ![0, 112] ![0, 0] (arg m c main_arg9) (padValue (F := Ideal)) pads_S128x16_S128x128_000_01120 h_S_))
        (shapeCast S1x128 (pad S128 ![0] ![112] ![0] (arg m c main_arg10) (padValue (F := Ideal)) pads_S16_S128_01120 h_S_) shapeCasts_S128_S1x128) := by
  refine (W19_arr m ρ c 2).trans ?_
  refine (Region7.result (V18 m ρ) c).trans ?_
  show Region7.G (W18 m ρ c (Proc.devRef .tc main_v92)) (W18 m ρ c (Proc.devRef .tc main_v93)) = _
  rw [product_at18 m ρ c, product_at17 m ρ c, paddedBiasRow_at18 m ρ c]

/-- The kernel program's result buffer at the last boundary holds the reference's network of the arguments. -/
theorem value : W20 m ρ c (Proc.devRef .tc main_v95)
    = network (F := Ideal) (arg m c main_arg0) (arg m c main_arg1) (arg m c main_arg2) (arg m c main_arg3) (arg m c main_arg4)
        (arg m c main_arg5) (arg m c main_arg6) (arg m c main_arg7) (arg m c main_arg8) (arg m c main_arg9) (arg m c main_arg10) := by
  rw [result_at20 m ρ c, last_at19 m ρ c]
  exact (Cert.Bridge.classifier_eq _ _ _ _).trans rfl

end Cert.KernelIdeal.Chain

end
-- ==== Proof.lean ====
/-
  The certificate: a graph convolution network as eight kernel regions among host operations, against its jnp reference.

  Both programs compute the graph once (the edges' sources and targets with a self loop per node, the degrees, the
  symmetric edge weights) and then three layers, a mean pool per graph and a linear classifier. The kernel program runs
  each layer's dense product and its bias (and positive part) as kernel regions tiled over the node rows, the products on
  operands cast to a narrower float format, and runs the classifier on weights and bias padded with zeros to 128 columns,
  keeping columns 0 … 15; the propagation over the graph and the pool are the reference's own host operations. At the
  extended reals a change of float format is the identity, a product into a zero accumulator is the plain contraction,
  a row-tiled product or pointwise region leaves the same whole-array function as the host operation, and a kept column of
  the padded classifier never sums a padded entry: the two programs compute one function of the arguments, entry by
  entry, with no condition on the inputs beyond the stated one.

  The three frames are the generated frames of the two kernel programs and the reference's run with its result dropped;
  the idealization rewrote no operation, so `preserves` is trivial.
-/
import proofs.«145221_j74741020885173_1_alg».proof.Defs
import proofs.«145221_j74741020885173_1_alg».proof.Proof.Gen.Kernel
import proofs.«145221_j74741020885173_1_alg».proof.Proof.Gen.Kernel.Frame
import proofs.«145221_j74741020885173_1_alg».proof.Proof.Gen.KernelIdeal
import proofs.«145221_j74741020885173_1_alg».proof.Proof.Gen.KernelIdeal.Frame
import proofs.«145221_j74741020885173_1_alg».proof.Proof.Gen.ReferenceIdeal
import proofs.«145221_j74741020885173_1_alg».proof.Proof.Gen.Pre_finite_inputs
import proofs.«145221_j74741020885173_1_alg».proof.Proof.RefRun
import proofs.«145221_j74741020885173_1_alg».proof.Proof.RefStages
import proofs.«145221_j74741020885173_1_alg».proof.Proof.KernelRun
import proofs.«145221_j74741020885173_1_alg».proof.Proof.ChainLayers
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- Run from memories that agree on the arguments, the kernel program's result buffer ends at the last boundary's
    contents, which is the reference's network of the arguments, and the reference's result is the same network. -/
theorem algebraic : Cert.algebraic_KernelIdeal_ReferenceIdeal := by
  intro m ρ m' ρ' _ hagree
  refine ⟨_, Cert.KernelIdeal.RunValue.run (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8, h9, h10⟩ := hagree c
  rw [Cert.ReferenceIdeal.Stages.result_eq, h0, h1, h2, h3, h4, h5, h6, h7, h8, h9, h10]
  exact (Cert.KernelIdeal.Chain.value m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
